-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x32 : Shape := ⟨2, ![2000000, 32]⟩
abbrev S2000000 : Shape := ⟨1, ![2000000]⟩
abbrev S32x64 : Shape := ⟨2, ![32, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S2000000x32 : S_.BroadcastsInDim S2000000x32 (![] : Fin 0 → Fin S2000000x32.rank)
  reducesTo_S2000000x32_S_d0_1 : S2000000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x64 .f32) (main_arg9 : FVec F S64 .f32) (main_arg10 : FVec F S64x1 .f32) (main_arg11 : FVec F S1 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64 .f32) (main_arg6 : FVec F S64x128 .f32) (main_arg7 : FVec F S128 .f32) (main_arg8 : FVec F S128x64 .f32) (main_arg9 : FVec F S64 .f32) (main_arg10 : FVec F S64x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S2000000x32 .f32) (main_arg1 : IVec S2000000 32) (main_arg2 : FVec F S32x64 .f32) (main_arg3 : FVec F S64 .f32) (main_arg4 : FVec F S64x64 .f32) (main_arg5 : FVec F S64 .f32) (main_arg6 : FVec F S64x128 .f32) (main_arg7 : FVec F S128 .f32) (main_arg8 : FVec F S128x64 .f32) (main_arg9 : FVec F S64 .f32) (main_arg10 : FVec F S64x1 .f32) (main_arg11 : FVec F S1 .f32) : IVec S_ 1 :=
  let main_v0 : FVec F S2000000x32 .f32 := Host.absf main_arg0
  let main_cst : FVec F S_ .f32 := constant S_ .f32 0x7F800000#32
  let main_v1 : FVec F S2000000x32 .f32 := broadcastInDim S2000000x32 ![] bcast_S_S2000000x32 main_cst
  let main_v2 : IVec S2000000x32 1 := cmpf .olt main_v0 main_v1
  let main_c : IVec S_ 1 := constantI S_ 1 1#1
  let main_v3 : IVec S_ 1 := (fun x v => Host.reduce IntOp.andi x v reducesTo_S2000000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S2000000x32 : Shape := ⟨2, ![2000000, 32]⟩
abbrev S2000000 : Shape := ⟨1, ![2000000]⟩
abbrev S32x64 : Shape := ⟨2, ![32, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x64 : Shape := ⟨2, ![1, 64]⟩
abbrev S2000000x64 : Shape := ⟨2, ![2000000, 64]⟩
abbrev S8000x32 : Shape := ⟨2, ![8000, 32]⟩
abbrev S8000x64 : Shape := ⟨2, ![8000, 64]⟩
abbrev S1999999 : Shape := ⟨1, ![1999999]⟩
abbrev S_ : Shape := ⟨0, ![]⟩
abbrev S100000x64 : Shape := ⟨2, ![100000, 64]⟩
abbrev S2000000x1 : Shape := ⟨2, ![2000000, 1]⟩
abbrev S1x128 : Shape := ⟨2, ![1, 128]⟩
abbrev S1x1 : Shape := ⟨2, ![1, 1]⟩
abbrev S100000x1 : Shape := ⟨2, ![100000, 1]⟩
abbrev S5000x64 : Shape := ⟨2, ![5000, 64]⟩
abbrev S5000x1 : Shape := ⟨2, ![5000, 1]⟩
abbrev S5000x128 : Shape := ⟨2, ![5000, 128]⟩

abbrev nBuf : Space → Nat
  | .hbm => 33
  | .vmem => 18
  | .smem => 0
  | _ => 0

abbrev bufTy : (tb : Table) → Fin (tcTables nBuf tb) → BufTy
  | .hbm, ⟨0, _⟩ => ⟨S2000000x32, .f32⟩
  | .hbm, ⟨1, _⟩ => ⟨S2000000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1x64, .f32⟩
  | .hbm, ⟨13, _⟩ => ⟨S1x64, .f32⟩
  | .hbm, ⟨14, _⟩ => ⟨S2000000x64, .f32⟩
  | .hbm, ⟨15, _⟩ => ⟨S1999999, .i32⟩
  | .hbm, ⟨16, _⟩ => ⟨S1999999, .i32⟩
  | .hbm, ⟨17, _⟩ => ⟨S1999999, .i1⟩
  | .hbm, ⟨18, _⟩ => ⟨S1999999, .i32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S_, .i32⟩
  | .hbm, ⟨23, _⟩ => ⟨S1999999, .i32⟩
  | .hbm, ⟨24, _⟩ => ⟨S2000000, .i32⟩
  | .hbm, ⟨25, _⟩ => ⟨S_, .f32⟩
  | .hbm, ⟨26, _⟩ => ⟨S100000x64, .f32⟩
  | .hbm, ⟨27, _⟩ => ⟨S2000000x1, .i32⟩
  | .hbm, ⟨28, _⟩ => ⟨S100000x64, .f32⟩
  | .hbm, ⟨29, _⟩ => ⟨S1x128, .f32⟩
  | .hbm, ⟨30, _⟩ => ⟨S1x64, .f32⟩
  | .hbm, ⟨31, _⟩ => ⟨S1x1, .f32⟩
  | .hbm, ⟨32, _⟩ => ⟨S100000x1, .f32⟩
  | .local _ .vmem, ⟨0, _⟩ => ⟨S8000x32, .f32⟩
  | .local _ .vmem, ⟨1, _⟩ => ⟨S8000x32, .f32⟩
  | .local _ .vmem, ⟨2, _⟩ => ⟨S32x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S5000x64, .f32⟩
  | .local _ .vmem, ⟨9, _⟩ => ⟨S5000x64, .f32⟩
  | .local _ .vmem, ⟨10, _⟩ => ⟨S64x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | _, _ => ⟨S2000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_call0_call0_c : Ref sig .tc := ⟨.hbm, 21, rfl⟩
abbrev main_call0_call0_v0 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S64_S1x64 : S64.ShapeCasts S1x64
  inb_S8000x32_S8000x32_0_0 : ∀ a, (![0, 0] : Fin 2 → Nat) a + S8000x32.size a ≤ S8000x32.size a
  h_S8000x32 : 0 < S8000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S8000x64_S8000x64_0_0 : ∀ a, (![0, 0] : Fin 2 → Nat) a + S8000x64.size a ≤ S8000x64.size a
  h_S8000x64 : 0 < S8000x64.numel
  slices_S2000000_S1999999_1 : S2000000.Slices ![1] S1999999
  slices_S2000000_S1999999_0 : S2000000.Slices ![0] S1999999
  natLt_1_32 : 1 < 32
  bcast_S_S1 : S_.BroadcastsInDim S1 (![] : Fin 0 → Fin S1.rank)
  bcast_S_S_ : S_.BroadcastsInDim S_ (![] : Fin 0 → Fin S_.rank)
  reduceWindows_S1999999_S1999999_w1999999s1p1999998_0 : S1999999.ReduceWindows (![1999999] : Fin 1 → Nat) ![1] ![1999998] ![0] S1999999
  h_S_ : 0 < S_.numel
  concatenates_S1_S1999999_S2000000_d0 : Shape.Concatenates [S1, S1999999] S2000000 0
  bcast_S_S100000x64 : S_.BroadcastsInDim S100000x64 (![] : Fin 0 → Fin S100000x64.rank)
  bcast_S2000000_S2000000x1_0 : S2000000.BroadcastsInDim S2000000x1 (![0] : Fin 1 → Fin S2000000x1.rank)
  shapeCasts_S128_S1x128 : S128.ShapeCasts S1x128
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S8000x32_S32x64_S8000x64_1_0_0_1_n_n_wf : DotDims.WF S8000x32 S32x64 S8000x64 [1] [0] [0] [1] [] []
  dot_S8000x64_S64x64_S8000x64_1_0_0_1_n_n_wf : DotDims.WF S8000x64 S64x64 S8000x64 [1] [0] [0] [1] [] []
  scatter_S100000x64_S2000000x1_S2000000x64_1_0_0_1_wf : ScatterDims.WF S100000x64 S2000000x1 S2000000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S2000000x32.size a
  hwx0_0 : ∀ i : grid0.Coords, EltTy.bits .f32 = 32 ∨ (Rect.block (s := S2000000x32) S8000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S2000000x64.size a
  hwx0_5 : ∀ i : grid0.Coords, EltTy.bits .f32 = 32 ∨ (Rect.block (s := S2000000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2000000x32 : Shape := ⟨2, ![2000000, 32]⟩
abbrev S2000000 : Shape := ⟨1, ![2000000]⟩
abbrev S32x64 : Shape := ⟨2, ![32, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S2000000x64 : Shape := ⟨2, ![2000000, 64]⟩
abbrev S1x64 : Shape := ⟨2, ![1, 64]⟩
abbrev S_ : Shape := ⟨0, ![]⟩
abbrev S1999999 : Shape := ⟨1, ![1999999]⟩
abbrev S100000x64 : Shape := ⟨2, ![100000, 64]⟩
abbrev S2000000x1 : Shape := ⟨2, ![2000000, 1]⟩
abbrev S100000x128 : Shape := ⟨2, ![100000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S2000000x32, .f32⟩
  | .hbm, ⟨1, _⟩ => ⟨S2000000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S2000000x64, .f32⟩
  | .hbm, ⟨13, _⟩ => ⟨S1x64, .f32⟩
  | .hbm, ⟨14, _⟩ => ⟨S2000000x64, .f32⟩
  | .hbm, ⟨15, _⟩ => ⟨S2000000x64, .f32⟩
  | .hbm, ⟨16, _⟩ => ⟨S_, .f32⟩
  | .hbm, ⟨17, _⟩ => ⟨S2000000x64, .f32⟩
  | .hbm, ⟨18, _⟩ => ⟨S2000000x64, .f32⟩
  | .hbm, ⟨19, _⟩ => ⟨S2000000x64, .f32⟩
  | .hbm, ⟨20, _⟩ => ⟨S1x64, .f32⟩
  | .hbm, ⟨21, _⟩ => ⟨S2000000x64, .f32⟩
  | .hbm, ⟨22, _⟩ => ⟨S2000000x64, .f32⟩
  | .hbm, ⟨23, _⟩ => ⟨S_, .f32⟩
  | .hbm, ⟨24, _⟩ => ⟨S2000000x64, .f32⟩
  | .hbm, ⟨25, _⟩ => ⟨S2000000x64, .f32⟩
  | .hbm, ⟨26, _⟩ => ⟨S1999999, .i32⟩
  | .hbm, ⟨27, _⟩ => ⟨S1999999, .i32⟩
  | .hbm, ⟨28, _⟩ => ⟨S1999999, .i1⟩
  | .hbm, ⟨29, _⟩ => ⟨S1999999, .i32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S_, .i32⟩
  | .hbm, ⟨34, _⟩ => ⟨S1999999, .i32⟩
  | .hbm, ⟨35, _⟩ => ⟨S2000000, .i32⟩
  | .hbm, ⟨36, _⟩ => ⟨S_, .f32⟩
  | .hbm, ⟨37, _⟩ => ⟨S100000x64, .f32⟩
  | .hbm, ⟨38, _⟩ => ⟨S2000000x1, .i32⟩
  | .hbm, ⟨39, _⟩ => ⟨S100000x64, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S100000x64, .f32⟩
  | .hbm, ⟨53, _⟩ => ⟨S100000x64, .f32⟩
  | .hbm, ⟨54, _⟩ => ⟨S100000x1, .f32⟩
  | .hbm, ⟨55, _⟩ => ⟨S1x1, .f32⟩
  | .hbm, ⟨56, _⟩ => ⟨S100000x1, .f32⟩
  | .hbm, ⟨57, _⟩ => ⟨S100000x1, .f32⟩
  | .hbm, ⟨58, _⟩ => ⟨S100000x1, .f32⟩
  | .hbm, ⟨59, _⟩ => ⟨S100000x1, .f32⟩
  | .hbm, ⟨60, _⟩ => ⟨S_, .f32⟩
  | .hbm, ⟨61, _⟩ => ⟨S100000x1, .f32⟩
  | .hbm, ⟨62, _⟩ => ⟨S100000x1, .f32⟩
  | .hbm, ⟨63, _⟩ => ⟨S_, .f32⟩
  | .hbm, ⟨64, _⟩ => ⟨S100000x1, .f32⟩
  | .hbm, ⟨65, _⟩ => ⟨S100000x1, .f32⟩
  | _, _ => ⟨S2000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_call2_call0_c : Ref sig .tc := ⟨.hbm, 32, rfl⟩
abbrev main_call2_call0_v0 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call3_cst : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call4_cst : Ref sig .tc := ⟨.hbm, 51, rfl⟩
abbrev main_call4_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_0 : Ref sig .tc := ⟨.hbm, 60, rfl⟩
abbrev main_v36 : Ref sig .tc := ⟨.hbm, 61, rfl⟩
abbrev main_v37 : Ref sig .tc := ⟨.hbm, 62, rfl⟩
abbrev main_cst_1 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  slices_S2000000_S1999999_1 : S2000000.Slices ![1] S1999999
  slices_S2000000_S1999999_0 : S2000000.Slices ![0] S1999999
  natLt_1_32 : 1 < 32
  bcast_S_S1 : S_.BroadcastsInDim S1 (![] : Fin 0 → Fin S1.rank)
  bcast_S_S_ : S_.BroadcastsInDim S_ (![] : Fin 0 → Fin S_.rank)
  reduceWindows_S1999999_S1999999_w1999999s1p1999998_0 : S1999999.ReduceWindows (![1999999] : Fin 1 → Nat) ![1] ![1999998] ![0] S1999999
  h_S_ : 0 < S_.numel
  concatenates_S1_S1999999_S2000000_d0 : Shape.Concatenates [S1, S1999999] S2000000 0
  bcast_S_S100000x64 : S_.BroadcastsInDim S100000x64 (![] : Fin 0 → Fin S100000x64.rank)
  bcast_S2000000_S2000000x1_0 : S2000000.BroadcastsInDim S2000000x1 (![0] : Fin 1 → Fin S2000000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S2000000x32_S32x64_S2000000x64_1_0_0_1_n_n_wf : DotDims.WF S2000000x32 S32x64 S2000000x64 [1] [0] [0] [1] [] []
  dot_S2000000x64_S64x64_S2000000x64_1_0_0_1_n_n_wf : DotDims.WF S2000000x64 S64x64 S2000000x64 [1] [0] [0] [1] [] []
  scatter_S100000x64_S2000000x1_S2000000x64_1_0_0_1_wf : ScatterDims.WF S100000x64 S2000000x1 S2000000x64 [1] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def dot_S2000000x32_S32x64_S2000000x64_1_0_0_1_n_n : DotDims S2000000x32 S32x64 S2000000x64 where
  lhsContracting := [1]
  rhsContracting := [0]
  lhsNonContracting := [0]
  rhsNonContracting := [1]
  lhsBatch := []
  rhsBatch := []
  wf := dot_S2000000x32_S32x64_S2000000x64_1_0_0_1_n_n_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.RefRun.lean ====
/-
  The reference program's run, read back. @main of the reference is a straight line of host operations once
  the bodies of its module-local functions (the rectifier at four shapes, the running sum through its inner
  function) are substituted at their calls: fifty-four operations, listed below in order. Every weakly fair
  execution then terminates with each buffer at the fold of the operations over the launch contents, and the
  fold at the result buffer is a composition of four maps of the argument contents:

    refPhi  — the per-row network: two dense layers (a contraction with the weights, the bias broadcast along
              the rows, the sum), each followed by the maximum with zero;
    refSeg  — the segment numbering: adjacent identifiers compared, the "differs" bits widened to integers,
              their running sum, a leading zero put in front, and the column shape the scatter reads;
    refPool — the pooling: the rows of the network's output added into a zero table at their segment numbers;
    refRho  — the per-segment network: three dense layers, the first two followed by the maximum with zero,
              and the logistic function 1 / (1 + exp (−·)) of the last.

  Nothing here evaluates an operation: the four maps are the printed operations composed, and the equation
  with the fold holds by unfolding the fold alone.
-/
import proofs.«109575_j11759620456594_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The four maps -/

/-- The per-row network: `relu (relu (x · w1 + b1) · w2 + b2)`, each bias broadcast along the rows, the
    rectifier the maximum with the zero array. Values %0 to %9 of @main. -/
def refPhi (x : FVec F S2000000x32 .f32) (w1 : FVec F S32x64 .f32) (b1 : FVec F S64 .f32)
    (w2 : FVec F S64x64 .f32) (b2 : FVec F S64 .f32) : FVec F S2000000x64 .f32 :=
  maximumf
    (addf
      (Host.dotGeneral dot_S2000000x64_S64x64_S2000000x64_1_0_0_1_n_n none
        (maximumf
          (addf (Host.dotGeneral dot_S2000000x32_S32x64_S2000000x64_1_0_0_1_n_n none x w1)
            (broadcastInDim S2000000x64 ![0, 1] bcast_S1x64_S2000000x64_0_1 (broadcastInDim S1x64 ![1] bcast_S64_S1x64_1 b1)))
          (broadcastInDim S2000000x64 ![] bcast_S_S2000000x64 (constant S_ .f32 0x00000000#32)))
        w2)
      (broadcastInDim S2000000x64 ![0, 1] bcast_S1x64_S2000000x64_0_1 (broadcastInDim S1x64 ![1] bcast_S64_S1x64_1 b2)))
    (broadcastInDim S2000000x64 ![] bcast_S_S2000000x64 (constant S_ .f32 0x00000000#32))

/-- The segment numbering: position 0 gets 0, position `i + 1` the number of places `j ≤ i` at which the
    identifier changes (`ids (j + 1) ≠ ids j`) — the running sum of the widened comparison bits behind a
    leading zero —, as a column. Values %10 to %16 and %18 of @main. -/
def refSeg (ids : (⟨S2000000, .i32⟩ : BufTy).Contents (Elt F)) : (⟨S2000000x1, .i32⟩ : BufTy).Contents (Elt F) :=
  broadcastInDim S2000000x1 ![0] bcast_S2000000_S2000000x1_0
    (concatenate S2000000 0
      [⟨S1, (broadcastInDim S1 ![] bcast_S_S1 (constantI S_ 32 0#32) : (⟨S1, .i32⟩ : BufTy).Contents (Elt F))⟩,
       ⟨S1999999, (Host.reduceWindow IntOp.addi ![1999999] ![1] ![1999998] ![0]
          ((extui 32 (cmpi .ne (extractStridedSlice S1999999 ![1] ids slices_S2000000_S1999999_1)
              (extractStridedSlice S1999999 ![0] ids slices_S2000000_S1999999_0)) natLt_1_32) : (⟨S1999999, .i32⟩ : BufTy).Contents (Elt F))
          (broadcastInDim S_ ![] bcast_S_S_ (constantI S_ 32 0#32))
          reduceWindows_S1999999_S1999999_w1999999s1p1999998_0 h_S_ : (⟨S1999999, .i32⟩ : BufTy).Contents (Elt F))⟩]
      concatenates_S1_S1999999_S2000000_d0 : (⟨S2000000, .i32⟩ : BufTy).Contents (Elt F))

/-- The pooling: the rows of `h` added into a zero table, row `i` at the segment number of `i`. Values %17
    and %19 of @main. -/
def refPool (ids : (⟨S2000000, .i32⟩ : BufTy).Contents (Elt F)) (h : FVec F S2000000x64 .f32) : FVec F S100000x64 .f32 :=
  Host.scatterAdd scatter_S100000x64_S2000000x1_S2000000x64_1_0_0_1
    (broadcastInDim S100000x64 ![] bcast_S_S100000x64 (constant S_ .f32 0x00000000#32))
    (refSeg (F := F) ids) h

/-- The per-segment network: `σ (relu (relu (p · w1 + b1) · w2 + b2) · w3 + b3)` with
    `σ t = 1 / (1 + exp (−t))`, the ones the constant of bits `0x3F800000` broadcast. Values %20 to %39 of @main. -/
def refRho (p : FVec F S100000x64 .f32) (w1 : FVec F S64x128 .f32) (b1 : FVec F S128 .f32)
    (w2 : FVec F S128x64 .f32) (b2 : FVec F S64 .f32) (w3 : FVec F S64x1 .f32) (b3 : FVec F S1 .f32) :
    FVec F S100000x1 .f32 :=
  Host.divf (broadcastInDim S100000x1 ![] bcast_S_S100000x1 (constant S_ .f32 0x3F800000#32))
    (addf (broadcastInDim S100000x1 ![] bcast_S_S100000x1 (constant S_ .f32 0x3F800000#32))
      (Host.exp (Host.negf
        (addf
          (Host.dotGeneral dot_S100000x64_S64x1_S100000x1_1_0_0_1_n_n none
            (maximumf
              (addf
                (Host.dotGeneral dot_S100000x128_S128x64_S100000x64_1_0_0_1_n_n none
                  (maximumf
                    (addf (Host.dotGeneral dot_S100000x64_S64x128_S100000x128_1_0_0_1_n_n none p w1)
                      (broadcastInDim S100000x128 ![0, 1] bcast_S1x128_S100000x128_0_1 (broadcastInDim S1x128 ![1] bcast_S128_S1x128_1 b1)))
                    (broadcastInDim S100000x128 ![] bcast_S_S100000x128 (constant S_ .f32 0x00000000#32)))
                  w2)
                (broadcastInDim S100000x64 ![0, 1] bcast_S1x64_S100000x64_0_1 (broadcastInDim S1x64 ![1] bcast_S64_S1x64_1 b2)))
              (broadcastInDim S100000x64 ![] bcast_S_S100000x64 (constant S_ .f32 0x00000000#32)))
            w3)
          (broadcastInDim S100000x1 ![0, 1] bcast_S1x1_S100000x1_0_1 (broadcastInDim S1x1 ![1] bcast_S1_S1x1_1 b3))))))

/-! ## @main as a list of operations -/

/-- @main's fifty-four operations in order, each call's body written out over that call's buffers: the
    rectifier's three (the zero, its broadcast, the maximum) at the four calls, the running sum's three (the
    zero, its rank-0 broadcast, the windowed sum) at the nested call. -/
abbrev ops : List (HloOp τ sig (Elt F)) :=
  [
    StableHlo.binary main_arg0 main_arg2 main_v0 ((fun l r => Host.dotGeneral dot_S2000000x32_S32x64_S2000000x64_1_0_0_1_n_n none l r) : (⟨S2000000x32, .f32⟩ : BufTy).Contents (Elt F) → (⟨S32x64, .f32⟩ : BufTy).Contents (Elt F) → (⟨S2000000x64, .f32⟩ : BufTy).Contents (Elt F)),
    StableHlo.unary main_arg3 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S2000000x64 ![0, 1] bcast_S1x64_S2000000x64_0_1 : (⟨S1x64, .f32⟩ : BufTy).Contents (Elt F) → (⟨S2000000x64, .f32⟩ : BufTy).Contents (Elt F)),
    StableHlo.binary main_v0 main_v2 main_v3 (addf : (⟨S2000000x64, .f32⟩ : BufTy).Contents (Elt F) → (⟨S2000000x64, .f32⟩ : BufTy).Contents (Elt F) → (⟨S2000000x64, .f32⟩ : BufTy).Contents (Elt F)),
    StableHlo.TRef.nullary main_call0.cst (constant S_ .f32 0x00000000#32),
    StableHlo.TRef.unary main_call0.cst main_call0.v0 (broadcastInDim S2000000x64 ![] bcast_S_S2000000x64),
    StableHlo.TRef.binary (.of main_v3 : StableHlo.TRef sig ⟨S2000000x64, .f32⟩) main_call0.v0 main_call0.v1 maximumf,
    StableHlo.binary main_v4 main_arg4 main_v5 ((fun l r => Host.dotGeneral dot_S2000000x64_S64x64_S2000000x64_1_0_0_1_n_n none l r) : (⟨S2000000x64, .f32⟩ : BufTy).Contents (Elt F) → (⟨S64x64, .f32⟩ : BufTy).Contents (Elt F) → (⟨S2000000x64, .f32⟩ : BufTy).Contents (Elt F)),
    StableHlo.unary main_arg5 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S2000000x64 ![0, 1] bcast_S1x64_S2000000x64_0_1 : (⟨S1x64, .f32⟩ : BufTy).Contents (Elt F) → (⟨S2000000x64, .f32⟩ : BufTy).Contents (Elt F)),
    StableHlo.binary main_v5 main_v7 main_v8 (addf : (⟨S2000000x64, .f32⟩ : BufTy).Contents (Elt F) → (⟨S2000000x64, .f32⟩ : BufTy).Contents (Elt F) → (⟨S2000000x64, .f32⟩ : BufTy).Contents (Elt F)),
    StableHlo.TRef.nullary main_call1.cst (constant S_ .f32 0x00000000#32),
    StableHlo.TRef.unary main_call1.cst main_call1.v0 (broadcastInDim S2000000x64 ![] bcast_S_S2000000x64),
    StableHlo.TRef.binary (.of main_v8 : StableHlo.TRef sig ⟨S2000000x64, .f32⟩) main_call1.v0 main_call1.v1 maximumf,
    StableHlo.unary main_arg1 main_v10 ((extractStridedSlice S1999999 ![1] · slices_S2000000_S1999999_1) : (⟨S2000000, .i32⟩ : BufTy).Contents (Elt F) → (⟨S1999999, .i32⟩ : BufTy).Contents (Elt F)),
    StableHlo.unary main_arg1 main_v11 ((extractStridedSlice S1999999 ![0] · slices_S2000000_S1999999_0) : (⟨S2000000, .i32⟩ : BufTy).Contents (Elt F) → (⟨S1999999, .i32⟩ : BufTy).Contents (Elt F)),
    StableHlo.binary main_v10 main_v11 main_v12 (cmpi .ne : (⟨S1999999, .i32⟩ : BufTy).Contents (Elt F) → (⟨S1999999, .i32⟩ : BufTy).Contents (Elt F) → (⟨S1999999, .i1⟩ : BufTy).Contents (Elt F)),
    StableHlo.unary main_v12 main_v13 ((extui 32 · natLt_1_32) : (⟨S1999999, .i1⟩ : BufTy).Contents (Elt F) → (⟨S1999999, .i32⟩ : BufTy).Contents (Elt F)),
    StableHlo.nullary main_c (constantI S_ 32 0#32),
    StableHlo.unary main_c main_v14 (broadcastInDim S1 ![] bcast_S_S1 : (⟨S_, .i32⟩ : BufTy).Contents (Elt F) → (⟨S1, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v13 : StableHlo.TRef sig ⟨S1999999, .i32⟩) main_call2.call0.v0 main_call2.call0.v1 (fun x v => Host.reduceWindow IntOp.addi ![1999999] ![1] ![1999998] ![0] x v reduceWindows_S1999999_S1999999_w1999999s1p1999998_0 h_S_),
    StableHlo.binary main_v14 main_v15 main_v16 ((fun a b => concatenate S2000000 0 [⟨S1, a⟩, ⟨S1999999, b⟩] concatenates_S1_S1999999_S2000000_d0) : (⟨S1, .i32⟩ : BufTy).Contents (Elt F) → (⟨S1999999, .i32⟩ : BufTy).Contents (Elt F) → (⟨S2000000, .i32⟩ : BufTy).Contents (Elt F)),
    StableHlo.nullary main_cst (constant S_ .f32 0x00000000#32),
    StableHlo.unary main_cst main_v17 (broadcastInDim S100000x64 ![] bcast_S_S100000x64 : (⟨S_, .f32⟩ : BufTy).Contents (Elt F) → (⟨S100000x64, .f32⟩ : BufTy).Contents (Elt F)),
    StableHlo.unary main_v16 main_v18 (broadcastInDim S2000000x1 ![0] bcast_S2000000_S2000000x1_0 : (⟨S2000000, .i32⟩ : BufTy).Contents (Elt F) → (⟨S2000000x1, .i32⟩ : BufTy).Contents (Elt F)),
    StableHlo.ternary main_v17 main_v18 main_v9 main_v19 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    StableHlo.binary main_v19 main_arg6 main_v20 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg7 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v23 : StableHlo.TRef sig ⟨S100000x128, .f32⟩) main_call3.v0 main_call3.v1 maximumf,
    StableHlo.binary main_v24 main_arg8 main_v25 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg9 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S100000x64 ![0, 1] bcast_S1x64_S100000x64_0_1 : (⟨S1x64, .f32⟩ : BufTy).Contents (Elt F) → (⟨S100000x64, .f32⟩ : BufTy).Contents (Elt F)),
    StableHlo.binary main_v25 main_v27 main_v28 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S100000x64 ![] bcast_S_S100000x64),
    StableHlo.TRef.binary (.of main_v28 : StableHlo.TRef sig ⟨S100000x64, .f32⟩) main_call4.v0 main_call4.v1 maximumf,
    StableHlo.binary main_v29 main_arg10 main_v30 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_arg11 main_v31 (broadcastInDim S1x1 ![1] bcast_S1_S1x1_1 : (⟨S1, .f32⟩ : BufTy).Contents (Elt F) → (⟨S1x1, .f32⟩ : BufTy).Contents (Elt F)),
    StableHlo.unary main_v31 main_v32 (broadcastInDim S100000x1 ![0, 1] bcast_S1x1_S100000x1_0_1 : (⟨S1x1, .f32⟩ : BufTy).Contents (Elt F) → (⟨S100000x1, .f32⟩ : BufTy).Contents (Elt F)),
    StableHlo.binary main_v30 main_v32 main_v33 (addf : (⟨S100000x1, .f32⟩ : BufTy).Contents (Elt F) → (⟨S100000x1, .f32⟩ : BufTy).Contents (Elt F) → (⟨S100000x1, .f32⟩ : BufTy).Contents (Elt F)),
    StableHlo.unary main_v33 main_v34 (Host.negf : (⟨S100000x1, .f32⟩ : BufTy).Contents (Elt F) → (⟨S100000x1, .f32⟩ : BufTy).Contents (Elt F)),
    StableHlo.unary main_v34 main_v35 (Host.exp : (⟨S100000x1, .f32⟩ : BufTy).Contents (Elt F) → (⟨S100000x1, .f32⟩ : BufTy).Contents (Elt F)),
    StableHlo.nullary main_cst_0 (constant S_ .f32 0x3F800000#32),
    StableHlo.unary main_cst_0 main_v36 (broadcastInDim S100000x1 ![] bcast_S_S100000x1 : (⟨S_, .f32⟩ : BufTy).Contents (Elt F) → (⟨S100000x1, .f32⟩ : BufTy).Contents (Elt F)),
    StableHlo.binary main_v36 main_v35 main_v37 (addf : (⟨S100000x1, .f32⟩ : BufTy).Contents (Elt F) → (⟨S100000x1, .f32⟩ : BufTy).Contents (Elt F) → (⟨S100000x1, .f32⟩ : BufTy).Contents (Elt F)),
    StableHlo.nullary main_cst_1 (constant S_ .f32 0x3F800000#32),
    StableHlo.unary main_cst_1 main_v38 (broadcastInDim S100000x1 ![] bcast_S_S100000x1 : (⟨S_, .f32⟩ : BufTy).Contents (Elt F) → (⟨S100000x1, .f32⟩ : BufTy).Contents (Elt F)),
    StableHlo.binary main_v38 main_v37 main_v39 (Host.divf : (⟨S100000x1, .f32⟩ : BufTy).Contents (Elt F) → (⟨S100000x1, .f32⟩ : BufTy).Contents (Elt F) → (⟨S100000x1, .f32⟩ : BufTy).Contents (Elt F)) ]

-- fifty-four binds re-associated under the chain
set_option maxRecDepth 4096 in
/-- @main is that straight line: the functions' bodies unfolded at their calls, both sides are one chain of
    steps once sequencing is re-associated. -/
theorem main_eq (c : Dev nD) : main (F := F) c = seq ops := by
  simp only [main, fn_relu.body, fn_cumsum.body, fn_cumsum_0.body, fn_relu_1.body, fn_relu_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., unary_bufs_sub .., unary_bufs_sub .., binary_bufs_sub .., unary_bufs_sub ..,
    nullary_bufs_sub .., unary_bufs_sub .., nullary_bufs_sub .., unary_bufs_sub .., binary_bufs_sub .., binary_bufs_sub ..,
    nullary_bufs_sub .., unary_bufs_sub .., unary_bufs_sub .., ternary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..⟩

/-! ## The fold at the result and at the arguments -/

attribute [local irreducible] Host.scatterAdd Host.reduceWindow in
set_option maxRecDepth 8192 in
/-- The fold at the result buffer is the four maps composed: the fold unrolled, each operation's result decides
    whether the buffer read is the one it writes, and the typed references' transports are the identity at these
    literal references. The windowed sum and the scatter stay folded (the contraction is a field of the float values, with nothing to
    unfold at a variable instance): the equation never looks inside them. -/
theorem out_eq (V : Valuation τ sig (Elt F)) :
    after ops V (main_v39 : DevRef τ sig)
      = refRho (refPool (V (main_arg1 : DevRef τ sig))
          (refPhi (V (main_arg0 : DevRef τ sig)) (V (main_arg2 : DevRef τ sig)) (V (main_arg3 : DevRef τ sig))
            (V (main_arg4 : DevRef τ sig)) (V (main_arg5 : DevRef τ sig))))
          (V (main_arg6 : DevRef τ sig)) (V (main_arg7 : DevRef τ sig)) (V (main_arg8 : DevRef τ sig))
          (V (main_arg9 : DevRef τ sig)) (V (main_arg10 : DevRef τ sig)) (V (main_arg11 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

theorem arg9_eq (V : Valuation τ sig (Elt F)) :
    after ops V (main_arg9 : DevRef τ sig) = V (main_arg9 : DevRef τ sig) := by
  simp only [after_cons, after_nil]
  rfl

theorem arg10_eq (V : Valuation τ sig (Elt F)) :
    after ops V (main_arg10 : DevRef τ sig) = V (main_arg10 : DevRef τ sig) := by
  simp only [after_cons, after_nil]
  rfl

theorem arg11_eq (V : Valuation τ sig (Elt F)) :
    after ops V (main_arg11 : DevRef τ sig) = V (main_arg11 : DevRef τ sig) := by
  simp only [after_cons, after_nil]
  rfl

/-! ## The run -/

/-- On every device, for any float values, from any memory with zero counters: every weakly fair execution of
    @main terminates with the result at the four maps composed over the arguments' launch contents, and the
    twelve arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = refRho (refPool (m ((c.tc : Thread nD τ).loc main_arg1))
            (refPhi (m ((c.tc : Thread nD τ).loc main_arg0)) (m ((c.tc : Thread nD τ).loc main_arg2)) (m ((c.tc : Thread nD τ).loc main_arg3))
              (m ((c.tc : Thread nD τ).loc main_arg4)) (m ((c.tc : Thread nD τ).loc main_arg5))))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v39).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ)

end Cert.ReferenceIdeal.RefRun

end
-- ==== Proof.KRun.lean ====
/-
  The idealized kernel program's run with the final contents named. The program is two kernel regions among stretches of host
  operations; every weakly fair execution terminates, and in every final state each unscoped buffer of a core holds the
  fold of the boundary contents through the segments: the host stretches applied in order, each region's arrays at what its
  pipeline's write-backs leave. The run is the launch theorem for a chain of segments over the generated segments of the
  program, its last thread state read against the final state.
-/
import proofs.«109575_j11759620456594_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every final state has each unscoped
    buffer of every core at the last boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.KRun

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«109575_j11759620456594_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSoftplusLayers.lean ====
/-
  The shifted softplus `log(1 + eˣ) − c` in the numerically stable spelling `max(x, 0) + log1p(exp(−|x − 0|))`, guarded by a
  test `(x − 0) ≠ (x − 0)` that never fires on the extended reals, and dense layers `rows · weights + bias row` with that
  activation between them, each in two spellings that denote one function of the extended reals:

  * a kernel body's — the rows of one block, the weights rounded to bf16 (the identity here), a matrix-unit product into a zero
    accumulator, the bias a `[1, M]` row repeated down the rows, the negation spelled `0 − y`, the never-firing test the ordered
    "not equal";
  * the host's — `dot_general`, the bias `[M]` lifted to `[1, M]` and then to `[A, M]`, the constants rank-0 arrays broadcast
    to the shape, `negate`, the test the unordered "not equal".

  Entry `(p, q)` of a layer reads row `p` of its input only, so a block of rows of the result is the result of that block of rows.
-/
import Idealize.ShloMosaic.PureOps.Ideal.Laws
import Idealize.ShloMosaic.Lib.ValueIdx
import Idealize.ShloMosaic.Lib.ValueLayout
import Idealize.ShloMosaic.Lib.Pipeline.Value
import proofs.«109575_j11759620456594_1_alg».proof.Proof.LibPlainDot
import proofs.«109575_j11759620456594_1_alg».proof.Proof.LibAffine

noncomputable section

namespace Idealize.ShloMosaic.SoftplusLayers

open Idealize.ShloMosaic.ValueIdx Idealize.ShloMosaic.Affine

/-! ## The activation on one extended real -/

/-- The f32 word of `0.0`, kept as a word: both spellings carry it, and only the step `0 − y = −y` evaluates it. -/
def zeroW : EReal := Ideal.ofBits .f32 0x00000000#32

/-- The f32 word the activation is shifted by (the float nearest `log 2`), never evaluated: both spellings carry the same word. -/
def shiftW : EReal := Ideal.ofBits .f32 0x3F317218#32

/-- `max(x, 0) + log1p(exp(−|x − 0|)) − c` behind the guard `(x − 0) ≠ (x − 0)`, which selects `x + 0` where it holds (nowhere). -/
def ssp (x : EReal) : EReal :=
  Scalar.select (Ideal.cmp .une (x - zeroW) (x - zeroW)) (x + zeroW)
    (max x zeroW + Ideal.log1p (Ideal.exp (-(max (x - zeroW) (-(x - zeroW)))))) - shiftW

/-- The kernel body's spelling of the same number: the ordered "not equal" and `0 − |·|`. -/
theorem ssp_kernel (x : EReal) :
    Scalar.select (Ideal.cmp .one (x - zeroW) (x - zeroW)) (x + zeroW)
      (max x zeroW + Ideal.log1p (Ideal.exp (zeroW - max (x - zeroW) (-(x - zeroW))))) - shiftW = ssp x := by
  have hz : zeroW - max (x - zeroW) (-(x - zeroW)) = -(max (x - zeroW) (-(x - zeroW))) := by
    rw [show zeroW = (0 : EReal) from Ideal.ofBits_zero_f32, zero_sub]
  rw [hz]
  rfl

/-! ## The activation on an array, in the two spellings -/

variable {s : Shape}

/-- The activation applied to every entry. -/
def sspV (x : FVec Ideal s .f32) : FVec Ideal s .f32 := fun i => ssp (x i)

/-- A kernel body's spelling on a vector: scalar constants splat to the shape. -/
def sspK (x : FVec Ideal s .f32) : FVec Ideal s .f32 :=
  subf (select (cmpf .one (subf x (broadcast s (Scalar.ofBits (F := Ideal) .f32 0x00000000#32))) (subf x (broadcast s (Scalar.ofBits (F := Ideal) .f32 0x00000000#32))))
      (addf x (broadcast s (Scalar.ofBits (F := Ideal) .f32 0x00000000#32)))
      (addf (maximumf x (broadcast s (Scalar.ofBits (F := Ideal) .f32 0x00000000#32)))
        (log1p (exp (subf (broadcast s (Scalar.ofBits (F := Ideal) .f32 0x00000000#32)) (absf (subf x (broadcast s (Scalar.ofBits (F := Ideal) .f32 0x00000000#32)))))))))
    (broadcast s (Scalar.ofBits (F := Ideal) .f32 0x3F317218#32))

theorem sspK_eq (x : FVec Ideal s .f32) : sspK x = sspV x := funext fun i => ssp_kernel (x i)

/-- The host's spelling: rank-0 constants broadcast to the shape, `abs`, `negate`, `exponential`, `log_plus_one`. -/
def sspH (h0 : (⟨0, ![]⟩ : Shape).BroadcastsInDim s ![]) (x : FVec Ideal s .f32) : FVec Ideal s .f32 :=
  subf (select (cmpf .une (subf x (broadcastInDim s ![] h0 (constant (F := Ideal) ⟨0, ![]⟩ .f32 0x00000000#32))) (subf x (broadcastInDim s ![] h0 (constant (F := Ideal) ⟨0, ![]⟩ .f32 0x00000000#32))))
      (addf x (broadcastInDim s ![] h0 (constant (F := Ideal) ⟨0, ![]⟩ .f32 0x00000000#32)))
      (addf (maximumf x (broadcastInDim s ![] h0 (constant (F := Ideal) ⟨0, ![]⟩ .f32 0x00000000#32)))
        (Host.log1p (Host.exp (Host.negf (Host.absf (subf x (broadcastInDim s ![] h0 (constant (F := Ideal) ⟨0, ![]⟩ .f32 0x00000000#32)))))))))
    (broadcastInDim s ![] h0 (constant (F := Ideal) ⟨0, ![]⟩ .f32 0x3F317218#32))

theorem sspH_eq (h0 : (⟨0, ![]⟩ : Shape).BroadcastsInDim s ![]) (x : FVec Ideal s .f32) : sspH h0 x = sspV x := rfl

/-! ## A dense layer in the two spellings -/

variable {A A' K H M : Nat}

/-- A kernel body's dense layer on a block of rows: rows and weights rounded to bf16, the matrix unit's product into a zero
    accumulator, the bias row (recast to its own shape) repeated down the rows. -/
def denseK (d : DotDims ⟨2, ![A, K]⟩ ⟨2, ![K, M]⟩ ⟨2, ![A, M]⟩) (ht : FTy.bf16.bits < FTy.f32.bits)
    (hc : (⟨2, ![1, M]⟩ : Shape).ShapeCasts ⟨2, ![1, M]⟩) (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    FVec Ideal ⟨2, ![A, M]⟩ .f32 :=
  addf (matmul d none (truncf .bf16 x ht) (truncf .bf16 w ht) (constant ⟨2, ![A, M]⟩ .f32 0x00000000#32))
    (broadcastTo ⟨2, ![A, M]⟩ (shapeCast ⟨2, ![1, M]⟩ b hc) hb)

/-- It is `rows · weights + bias row`, entry by entry. -/
theorem denseK_eq {d : DotDims ⟨2, ![A, K]⟩ ⟨2, ![K, M]⟩ ⟨2, ![A, M]⟩} (hd : d = DotDims.plain A K M)
    (ht : FTy.bf16.bits < FTy.f32.bits) (hc : (⟨2, ![1, M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    denseK d ht hc hb x w b = affine x (truncf .bf16 w ht) b := by
  subst hd
  funext i
  obtain ⟨p, q, rfl⟩ : ∃ (p : Fin A) (q : Fin M), i = ix2 p q := ⟨i 0, i 1, eq_ix2 i⟩
  unfold denseK
  rw [shapeCast_self]
  exact body_apply none x (truncf .bf16 w ht) b ht hb p q

/-- The host's dense layer on all the rows: `dot_general` plus the bias lifted to a row and then to the rows. -/
def denseH (d : DotDims ⟨2, ![A, K]⟩ ⟨2, ![K, M]⟩ ⟨2, ![A, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32) :
    FVec Ideal ⟨2, ![A, M]⟩ .f32 :=
  addf (Host.dotGeneral d none X W) (broadcastInDim ⟨2, ![A, M]⟩ ![0, 1] h2 (broadcastInDim ⟨2, ![1, M]⟩ ![1] h1 b))

/-- It is the same function of the weights rounded to bf16 and the bias recast to a row. -/
theorem denseH_eq {d : DotDims ⟨2, ![A, K]⟩ ⟨2, ![K, M]⟩ ⟨2, ![A, M]⟩} (hd : d = DotDims.plain A K M)
    (h1 : (⟨1, ![M]⟩ : Shape).BroadcastsInDim ⟨2, ![1, M]⟩ ![1])
    (h2 : (⟨2, ![1, M]⟩ : Shape).BroadcastsInDim ⟨2, ![A, M]⟩ ![0, 1])
    (ht : FTy.bf16.bits < FTy.f32.bits) (hc : (⟨1, ![M]⟩ : Shape).ShapeCasts ⟨2, ![1, M]⟩)
    (X : FVec Ideal ⟨2, ![A, K]⟩ .f32) (W : FVec Ideal ⟨2, ![K, M]⟩ .f32) (b : FVec Ideal ⟨1, ![M]⟩ .f32) :
    denseH d h1 h2 X W b = affine X (truncf .bf16 W ht) (shapeCast ⟨2, ![1, M]⟩ b hc) := by
  subst hd
  exact (affine_eq_host none .single X W b ht hc h1 h2).symm

/-- Entry `(p, q)` of a dense layer reads row `p` of its input only: rows that agree give entries that agree. -/
theorem affine_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    affine Xb W b (ix2 p q) = affine X W b (ix2 r q) := by
  rw [affine_ix2, affine_ix2]
  congr 1
  exact Finset.sum_congr rfl fun k _ => by rw [h k]

/-! ## Two layers with the activation after each (an edge network), and two layers with the activation between (an output head) -/

/-- `ssp (ssp (X·W1 + b1)·W2 + b2)`. -/
def mlp2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  sspV (affine (sspV (affine X W1 b1)) W2 b2)

theorem mlp2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    mlp2 Xb W1 b1 W2 b2 (ix2 p q) = mlp2 X W1 b1 W2 b2 (ix2 r q) := by
  show ssp (affine (sspV (affine Xb W1 b1)) W2 b2 (ix2 p q)) = ssp (affine (sspV (affine X W1 b1)) W2 b2 (ix2 r q))
  refine congrArg ssp ?_
  exact affine_rows _ _ W2 b2 p r (fun k => congrArg ssp (affine_rows Xb X W1 b1 p r h k)) q

/-- `ssp (X·Wo + bo)·Wp + bp`. -/
def proj2 {φ1 φ2 : FTy} (X : FVec Ideal ⟨2, ![A, K]⟩ .f32) (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) : FVec Ideal ⟨2, ![A, M]⟩ .f32 :=
  affine (sspV (affine X Wo bo)) Wp bp

theorem proj2_rows {φ1 φ2 : FTy} (Xb : FVec Ideal ⟨2, ![A, K]⟩ .f32) (X : FVec Ideal ⟨2, ![A', K]⟩ .f32)
    (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) (p : Fin A) (r : Fin A')
    (h : ∀ k : Fin K, Xb (ix2 p k) = X (ix2 r k)) (q : Fin M) :
    proj2 Xb Wo bo Wp bp (ix2 p q) = proj2 X Wo bo Wp bp (ix2 r q) :=
  affine_rows _ _ Wp bp p r (fun k => congrArg ssp (affine_rows Xb X Wo bo p r h k)) q

/-- The edge network as a kernel body spells it on a block of rows. -/
def mlp2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  sspK (denseK d2 ht hc2 hb2 (sspK (denseK d1 ht hc1 hb1 x0 x1 x2)) x3 x4)

theorem mlp2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    mlp2K d1 d2 ht hc1 hb1 hc2 hb2 x0 x1 x2 x3 x4 = mlp2 x0 (truncf .bf16 x1 ht) x2 (truncf .bf16 x3 ht) x4 := by
  unfold mlp2K mlp2
  rw [denseK_eq hd1, sspK_eq, denseK_eq hd2, sspK_eq]

/-- The output head as a kernel body spells it on a block of rows. -/
def proj2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  denseK d2 ht hc2 hb2 (sspK (denseK d1 ht hc1 hb1 x0 x1 x2)) x3 x4

theorem proj2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    proj2K d1 d2 ht hc1 hb1 hc2 hb2 x0 x1 x2 x3 x4 = proj2 x0 (truncf .bf16 x1 ht) x2 (truncf .bf16 x3 ht) x4 := by
  unfold proj2K proj2
  rw [denseK_eq hd1, sspK_eq, denseK_eq hd2]

end Idealize.ShloMosaic.SoftplusLayers

end
-- ==== Proof.LibReluMlp.lean ====
/-
  Dense layers `rows · weights + bias row` followed by the rectifier `max(·, 0)`, and the logistic function `1 / (1 + e⁻ˣ)`
  after a last layer, each in two spellings that denote one function of the extended reals:

  * a kernel body's — a block of rows, rows and weights rounded to bf16 (the identity here), the matrix unit's product into a
    zero accumulator, the bias a `[1, M]` row repeated down the rows, the zero a scalar splat to the shape, the logistic
    function one operation;
  * the host's — `dot_general`, the bias `[M]` lifted to `[1, M]` and then to `[A, M]`, the zero and the one rank-0 arrays
    broadcast to the shape, the logistic function spelled `1 / (1 + exp(−x))`.

  Entry `(p, q)` of every layer reads row `p` of its input only, so a block of rows of the result is the result of that
  block of rows. Two stacks are named: two rectified layers (`phi2`), and two rectified layers, a third layer and the
  logistic function (`rho3`).
-/
import Idealize.ShloMosaic.PureOps.Ideal.Laws
import Idealize.ShloMosaic.Lib.ValueIdx
import Idealize.ShloMosaic.Lib.ValueLayout
import Idealize.ShloMosaic.Lib.Pipeline.Value
import proofs.«109575_j11759620456594_1_alg».proof.Proof.LibPlainDot
import proofs.«109575_j11759620456594_1_alg».proof.Proof.LibAffine
import proofs.«109575_j11759620456594_1_alg».proof.Proof.LibSoftplusLayers

noncomputable section

namespace Idealize.ShloMosaic.ReluMlp

open Idealize.ShloMosaic.ValueIdx Idealize.ShloMosaic.Affine Idealize.ShloMosaic.SoftplusLayers

/-! ## The rectifier and the logistic function on an array, in the two spellings -/

variable {s : Shape}

/-- `max(x, 0)`, the zero kept as the f32 word both spellings carry. -/
def relu (x : EReal) : EReal := max x zeroW

/-- The rectifier applied to every entry. -/
def reluV (x : FVec Ideal s .f32) : FVec Ideal s .f32 := fun i => relu (x i)

/-- A kernel body's spelling: the scalar zero splat to the shape. -/
def reluK (x : FVec Ideal s .f32) : FVec Ideal s .f32 :=
  maximumf x (broadcast s (Scalar.ofBits (F := Ideal) .f32 0x00000000#32))

theorem reluK_eq (x : FVec Ideal s .f32) : reluK x = reluV x := rfl

/-- The host's spelling: the rank-0 zero broadcast to the shape. -/
def reluH (h0 : (⟨0, ![]⟩ : Shape).BroadcastsInDim s ![]) (x : FVec Ideal s .f32) : FVec Ideal s .f32 :=
  maximumf x (broadcastInDim s ![] h0 (constant (F := Ideal) ⟨0, ![]⟩ .f32 0x00000000#32))

theorem reluH_eq (h0 : (⟨0, ![]⟩ : Shape).BroadcastsInDim s ![]) (x : FVec Ideal s .f32) : reluH h0 x = reluV x := rfl

/-- The f32 word of `1.0` is the real one. -/
theorem one_word : Ideal.ofBits .f32 0x3F800000#32 = 1 := by
  simp [Ideal.ofBits, Ideal.ieee, -EReal.coe_mul]; norm_num

/-- The logistic function applied to every entry. -/
def sigV (x : FVec Ideal s .f32) : FVec Ideal s .f32 := fun i => Ideal.logistic (x i)

/-- A kernel body's spelling is the one operation. -/
theorem sigK_eq (x : FVec Ideal s .f32) : logistic x = sigV x := rfl

/-- The host's spelling: `1 / (1 + exp(−x))` with the ones rank-0 arrays broadcast to the shape. -/
def sigH (h0 : (⟨0, ![]⟩ : Shape).BroadcastsInDim s ![]) (x : FVec Ideal s .f32) : FVec Ideal s .f32 :=
  Host.divf (broadcastInDim s ![] h0 (constant (F := Ideal) ⟨0, ![]⟩ .f32 0x3F800000#32))
    (addf (broadcastInDim s ![] h0 (constant (F := Ideal) ⟨0, ![]⟩ .f32 0x3F800000#32)) (Host.exp (Host.negf x)))

theorem sigH_eq (h0 : (⟨0, ![]⟩ : Shape).BroadcastsInDim s ![]) (x : FVec Ideal s .f32) : sigH h0 x = sigV x := by
  funext i
  show Ideal.div (Ideal.ofBits .f32 0x3F800000#32) (Ideal.ofBits .f32 0x3F800000#32 + Ideal.exp (-(x i))) = Ideal.logistic (x i)
  rw [one_word]
  rfl

/-! ## Rectified layers -/

variable {A A' K H H' M : Nat}

/-- `max(X·W + b, 0)`. -/
def layer {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  reluV (affine X W b)

/-- Entry `(p, q)` of a rectified layer reads row `p` of its input only. -/
theorem layer_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    layer Xb W b (ix2 p q) = layer X W b (ix2 r q) :=
  congrArg relu (affine_rows Xb X W b p r h q)

/-- Two rectified layers: `max(max(X·W1 + b1, 0)·W2 + b2, 0)`. -/
def phi2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  layer (layer X W1 b1) W2 b2

theorem phi2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    phi2 Xb W1 b1 W2 b2 (ix2 p q) = phi2 X W1 b1 W2 b2 (ix2 r q) :=
  layer_rows _ _ W2 b2 p r (fun k => layer_rows Xb X W1 b1 p r h k) q

/-- Two rectified layers, a third layer and the logistic function. -/
def rho3 {φ1 φ2 φ3 : FTy} (X : FVec Ideal ⟨2, ![A, K]⟩ .f32) (W1 : FVec Ideal ⟨2, ![K, H]⟩ φ1) (b1 : FVec Ideal ⟨2, ![1, H]⟩ .f32)
    (W2 : FVec Ideal ⟨2, ![H, H']⟩ φ2) (b2 : FVec Ideal ⟨2, ![1, H']⟩ .f32)
    (W3 : FVec Ideal ⟨2, ![H', M]⟩ φ3) (b3 : FVec Ideal ⟨2, ![1, M]⟩ .f32) : FVec Ideal ⟨2, ![A, M]⟩ .f32 :=
  sigV (affine (phi2 X W1 b1 W2 b2) W3 b3)

theorem rho3_rows {φ1 φ2 φ3 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, H']⟩ φ2) (b2 : FVec Ideal ⟨2, ![1, H']⟩ .f32)
    (W3 : FVec Ideal ⟨2, ![H', M]⟩ φ3) (b3 : FVec Ideal ⟨2, ![1, M]⟩ .f32) (p : Fin A) (r : Fin A')
    (h : ∀ k : Fin K, Xb (ix2 p k) = X (ix2 r k)) (q : Fin M) :
    rho3 Xb W1 b1 W2 b2 W3 b3 (ix2 p q) = rho3 X W1 b1 W2 b2 W3 b3 (ix2 r q) :=
  congrArg Ideal.logistic
    (affine_rows _ _ W3 b3 p r (fun k => phi2_rows Xb X W1 b1 W2 b2 p r h k) q)

/-! ## The stacks as a kernel body spells them on a block of rows -/

def phi2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  reluK (denseK d2 ht hc2 hb2 (reluK (denseK d1 ht hc1 hb1 x0 x1 x2)) x3 x4)

theorem phi2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    phi2K d1 d2 ht hc1 hb1 hc2 hb2 x0 x1 x2 x3 x4 = phi2 x0 (truncf .bf16 x1 ht) x2 (truncf .bf16 x3 ht) x4 := by
  unfold phi2K phi2 layer
  rw [denseK_eq hd1, reluK_eq, denseK_eq hd2, reluK_eq]

/-- The second stack on a block of rows, the block first recast to its own shape. -/
def rho3K (d1 : DotDims ⟨2, ![A, K]⟩ ⟨2, ![K, H]⟩ ⟨2, ![A, H]⟩) (d2 : DotDims ⟨2, ![A, H]⟩ ⟨2, ![H, H']⟩ ⟨2, ![A, H']⟩)
    (d3 : DotDims ⟨2, ![A, H']⟩ ⟨2, ![H', M]⟩ ⟨2, ![A, M]⟩) (ht : FTy.bf16.bits < FTy.f32.bits)
    (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, H']⟩ : Shape).ShapeCasts ⟨2, ![1, H']⟩) (hb2 : (⟨2, ![1, H']⟩ : Shape).Broadcasts ⟨2, ![A, H']⟩)
    (hc3 : (⟨2, ![1, M]⟩ : Shape).ShapeCasts ⟨2, ![1, M]⟩) (hb3 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, H']⟩ .f32) (x4 : FVec Ideal ⟨2, ![1, H']⟩ .f32)
    (x5 : FVec Ideal ⟨2, ![H', M]⟩ .f32) (x6 : FVec Ideal ⟨2, ![1, M]⟩ .f32) : FVec Ideal ⟨2, ![A, M]⟩ .f32 :=
  logistic (denseK d3 ht hc3 hb3 (reluK (denseK d2 ht hc2 hb2
    (reluK (denseK d1 ht hc1 hb1 (shapeCast ⟨2, ![A, K]⟩ x0 hc0) x1 x2)) x3 x4)) x5 x6)

theorem rho3K_eq {d1 : DotDims ⟨2, ![A, K]⟩ ⟨2, ![K, H]⟩ ⟨2, ![A, H]⟩} {d2 : DotDims ⟨2, ![A, H]⟩ ⟨2, ![H, H']⟩ ⟨2, ![A, H']⟩}
    {d3 : DotDims ⟨2, ![A, H']⟩ ⟨2, ![H', M]⟩ ⟨2, ![A, M]⟩}
    (hd1 : d1 = DotDims.plain A K H) (hd2 : d2 = DotDims.plain A H H') (hd3 : d3 = DotDims.plain A H' M)
    (ht : FTy.bf16.bits < FTy.f32.bits)
    (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, H']⟩ : Shape).ShapeCasts ⟨2, ![1, H']⟩) (hb2 : (⟨2, ![1, H']⟩ : Shape).Broadcasts ⟨2, ![A, H']⟩)
    (hc3 : (⟨2, ![1, M]⟩ : Shape).ShapeCasts ⟨2, ![1, M]⟩) (hb3 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, H']⟩ .f32) (x4 : FVec Ideal ⟨2, ![1, H']⟩ .f32)
    (x5 : FVec Ideal ⟨2, ![H', M]⟩ .f32) (x6 : FVec Ideal ⟨2, ![1, M]⟩ .f32) :
    rho3K d1 d2 d3 ht hc0 hc1 hb1 hc2 hb2 hc3 hb3 x0 x1 x2 x3 x4 x5 x6
      = rho3 x0 (truncf .bf16 x1 ht) x2 (truncf .bf16 x3 ht) x4 (truncf .bf16 x5 ht) x6 := by
  unfold rho3K rho3 phi2 layer
  rw [shapeCast_self, denseK_eq hd1, reluK_eq, denseK_eq hd2, reluK_eq, denseK_eq hd3, sigK_eq]

/-! ## The stacks as the host spells them on all the rows -/

def phi2H (d1 : DotDims ⟨2, ![A, K]⟩ ⟨2, ![K, H]⟩ ⟨2, ![A, H]⟩) (d2 : DotDims ⟨2, ![A, H]⟩ ⟨2, ![H, M]⟩ ⟨2, ![A, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![])
    (X : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) : FVec Ideal ⟨2, ![A, M]⟩ .f32 :=
  reluH z2 (denseH d2 g3 g4 (reluH z1 (denseH d1 g1 g2 X W1 b1)) W2 b2)

theorem phi2H_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![])
    (ht : FTy.bf16.bits < FTy.f32.bits)
    (hc1 : (⟨1, ![H]⟩ : Shape).ShapeCasts ⟨2, ![1, H]⟩) (hc2 : (⟨1, ![M]⟩ : Shape).ShapeCasts ⟨2, ![1, M]⟩)
    (X : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) :
    phi2H d1 d2 g1 g2 z1 g3 g4 z2 X W1 b1 W2 b2
      = phi2 X (truncf .bf16 W1 ht) (shapeCast ⟨2, ![1, H]⟩ b1 hc1) (truncf .bf16 W2 ht) (shapeCast ⟨2, ![1, M]⟩ b2 hc2) := by
  unfold phi2H phi2 layer
  rw [denseH_eq hd1 g1 g2 ht hc1, reluH_eq, denseH_eq hd2 g3 g4 ht hc2, reluH_eq]

def rho3H (d1 : DotDims ⟨2, ![A, K]⟩ ⟨2, ![K, H]⟩ ⟨2, ![A, H]⟩) (d2 : DotDims ⟨2, ![A, H]⟩ ⟨2, ![H, H']⟩ ⟨2, ![A, H']⟩)
    (d3 : DotDims ⟨2, ![A, H']⟩ ⟨2, ![H', M]⟩ ⟨2, ![A, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![H']⟩ : Shape).BroadcastsInDim ⟨2, ![1, H']⟩ ![1]) (g4 : (⟨2, ![1, H']⟩ : Shape).BroadcastsInDim ⟨2, ![A, H']⟩ ![0, 1])
    (z2 : (⟨0, ![]⟩ : Shape).BroadcastsInDim ⟨2, ![A, H']⟩ ![])
    (g5 : (⟨1, ![M]⟩ : Shape).BroadcastsInDim ⟨2, ![1, M]⟩ ![1]) (g6 : (⟨2, ![1, M]⟩ : Shape).BroadcastsInDim ⟨2, ![A, M]⟩ ![0, 1])
    (z3 : (⟨0, ![]⟩ : Shape).BroadcastsInDim ⟨2, ![A, M]⟩ ![])
    (X : FVec Ideal ⟨2, ![A, K]⟩ .f32) (W1 : FVec Ideal ⟨2, ![K, H]⟩ .f32) (b1 : FVec Ideal ⟨1, ![H]⟩ .f32)
    (W2 : FVec Ideal ⟨2, ![H, H']⟩ .f32) (b2 : FVec Ideal ⟨1, ![H']⟩ .f32)
    (W3 : FVec Ideal ⟨2, ![H', M]⟩ .f32) (b3 : FVec Ideal ⟨1, ![M]⟩ .f32) : FVec Ideal ⟨2, ![A, M]⟩ .f32 :=
  sigH z3 (denseH d3 g5 g6 (reluH z2 (denseH d2 g3 g4 (reluH z1 (denseH d1 g1 g2 X W1 b1)) W2 b2)) W3 b3)

theorem rho3H_eq {d1 : DotDims ⟨2, ![A, K]⟩ ⟨2, ![K, H]⟩ ⟨2, ![A, H]⟩} {d2 : DotDims ⟨2, ![A, H]⟩ ⟨2, ![H, H']⟩ ⟨2, ![A, H']⟩}
    {d3 : DotDims ⟨2, ![A, H']⟩ ⟨2, ![H', M]⟩ ⟨2, ![A, M]⟩}
    (hd1 : d1 = DotDims.plain A K H) (hd2 : d2 = DotDims.plain A H H') (hd3 : d3 = DotDims.plain A H' M)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![H']⟩ : Shape).BroadcastsInDim ⟨2, ![1, H']⟩ ![1]) (g4 : (⟨2, ![1, H']⟩ : Shape).BroadcastsInDim ⟨2, ![A, H']⟩ ![0, 1])
    (z2 : (⟨0, ![]⟩ : Shape).BroadcastsInDim ⟨2, ![A, H']⟩ ![])
    (g5 : (⟨1, ![M]⟩ : Shape).BroadcastsInDim ⟨2, ![1, M]⟩ ![1]) (g6 : (⟨2, ![1, M]⟩ : Shape).BroadcastsInDim ⟨2, ![A, M]⟩ ![0, 1])
    (z3 : (⟨0, ![]⟩ : Shape).BroadcastsInDim ⟨2, ![A, M]⟩ ![])
    (ht : FTy.bf16.bits < FTy.f32.bits)
    (hc1 : (⟨1, ![H]⟩ : Shape).ShapeCasts ⟨2, ![1, H]⟩) (hc2 : (⟨1, ![H']⟩ : Shape).ShapeCasts ⟨2, ![1, H']⟩)
    (hc3 : (⟨1, ![M]⟩ : Shape).ShapeCasts ⟨2, ![1, M]⟩)
    (X : FVec Ideal ⟨2, ![A, K]⟩ .f32) (W1 : FVec Ideal ⟨2, ![K, H]⟩ .f32) (b1 : FVec Ideal ⟨1, ![H]⟩ .f32)
    (W2 : FVec Ideal ⟨2, ![H, H']⟩ .f32) (b2 : FVec Ideal ⟨1, ![H']⟩ .f32)
    (W3 : FVec Ideal ⟨2, ![H', M]⟩ .f32) (b3 : FVec Ideal ⟨1, ![M]⟩ .f32) :
    rho3H d1 d2 d3 g1 g2 z1 g3 g4 z2 g5 g6 z3 X W1 b1 W2 b2 W3 b3
      = rho3 X (truncf .bf16 W1 ht) (shapeCast ⟨2, ![1, H]⟩ b1 hc1) (truncf .bf16 W2 ht) (shapeCast ⟨2, ![1, H']⟩ b2 hc2)
          (truncf .bf16 W3 ht) (shapeCast ⟨2, ![1, M]⟩ b3 hc3) := by
  unfold rho3H rho3 phi2 layer
  rw [denseH_eq hd1 g1 g2 ht hc1, reluH_eq, denseH_eq hd2 g3 g4 ht hc2, reluH_eq, denseH_eq hd3 g5 g6 ht hc3, sigH_eq]

end Idealize.ShloMosaic.ReluMlp

end
-- ==== Proof.KPhi.lean ====
/-
  The first region: the two rectified layers on the rows of the input matrix, tiled 8000 rows to a grid point. The body's one
  store is the stack of its loaded blocks; block `t` of the rows is rows `8000·t … 8000·t + 7999`, the four small operands
  are whole at every point, and an entry of the stack reads its own row only — so what point `t` writes back is block `t` of
  the stack applied to ALL the rows, the blocks tile the output array, and the array ends holding that one function of the
  contents the region finds. Stated at any entry contents `V`.
-/
import proofs.«109575_j11759620456594_1_alg».proof.Proof.Gen.KernelIdeal.Frame
import proofs.«109575_j11759620456594_1_alg».proof.Proof.LibReluMlp
import Idealize.ShloMosaic.Lib.Pipeline.Value
import Idealize.ShloMosaic.Lib.ValueIdx

set_option maxRecDepth 16384

noncomputable section

namespace Cert.KernelIdeal.KPhi

open Cert.KernelIdeal Cert.KernelIdeal.Gen
open Idealize.ShloMosaic Idealize.ShloMosaic.TcCoe Idealize.SL.Sem
open Idealize.ShloMosaic.ValueIdx Idealize.ShloMosaic.ReluMlp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stack on all the rows: weights rounded to bf16, biases given as rows. -/
def phiArr (x : FVec Ideal S2000000x32 .f32) (w1 : FVec Ideal S32x64 .f32) (b1 : FVec Ideal S1x64 .f32)
    (w2 : FVec Ideal S64x64 .f32) (b2 : FVec Ideal S1x64 .f32) : FVec Ideal S2000000x64 .f32 :=
  phi2 x (truncf .bf16 w1 bitsLt_bf16_f32) b1 (truncf .bf16 w2 bitsLt_bf16_f32) b2

/-- The body's payload is the stack of its loaded blocks. -/
theorem pay_eq (x0 : FVec Ideal S8000x32 .f32) (x1 : FVec Ideal S32x64 .f32) (x2 : FVec Ideal S1x64 .f32)
    (x3 : FVec Ideal S64x64 .f32) (x4 : FVec Ideal S1x64 .f32) :
    k0_pay1 x0 x1 x2 x3 x4 = phi2 x0 (truncf .bf16 x1 bitsLt_bf16_f32) x2 (truncf .bf16 x3 bitsLt_bf16_f32) x4 :=
  phi2K_eq (d1 := dot_S8000x32_S32x64_S8000x64_1_0_0_1_n_n) (d2 := dot_S8000x64_S64x64_S8000x64_1_0_0_1_n_n) rfl rfl
    bitsLt_bf16_f32 shapeCasts_S1x64_S1x64 broadcasts_S1x64_S8000x64 shapeCasts_S1x64_S1x64 broadcasts_S1x64_S8000x64 x0 x1 x2 x3 x4

/-- What the body leaves in the output block, at row `p` of the block: the stack on all the rows at any row `r` that
    holds the block's row `p`. -/
theorem out_at (x0 : FVec Ideal S8000x32 .f32) (x1 : FVec Ideal S32x64 .f32) (x2 : FVec Ideal S1x64 .f32)
    (x3 : FVec Ideal S64x64 .f32) (x4 : FVec Ideal S1x64 .f32) (X : FVec Ideal S2000000x32 .f32)
    (p : Fin 8000) (r : Fin 2000000) (h : ∀ k : Fin 32, x0 (ix2 p k) = X (ix2 r k)) (q : Fin 64) :
    out0_5 (F := Ideal) x0 x1 x2 x3 x4 (ix2 p q) = phiArr X x1 x2 x3 x4 (ix2 r q) := by
  unfold out0_5
  rw [View.canon_unit_zero hz]
  simp only [View.ld_unit_zero (S := S8000x32) hz, View.ld_unit_zero (S := S32x64) hz, View.ld_unit_zero (S := S1x64) hz,
    View.ld_unit_zero (S := S64x64) hz]
  rw [pay_eq]
  exact phi2_rows x0 X _ x2 _ x4 p r h q

/-- The printed index maps, decided over the grid: the row windows' block index is the point, every other index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The small operands' blocks are the whole arrays. -/
theorem blk1 (c : Dev nD) (t : Fin cfg0.N) : iblk0 V c 1 t = V c main_arg2 := by
  obtain ⟨-, -, e0, e1, -⟩ := idx_facts t
  funext y
  show V c main_arg2 (((cfg0.win 1).blk t).view.emb y) = V c main_arg2 y
  refine congrArg _ ?_
  funext a; apply Fin.ext
  match a with
  | ⟨0, _⟩ => show win0_1.index t (0 : Fin 2) * 32 + 1 * (y 0).val = (y 0).val; omega
  | ⟨1, _⟩ => show win0_1.index t (1 : Fin 2) * 64 + 1 * (y 1).val = (y 1).val; omega
theorem blk2 (c : Dev nD) (t : Fin cfg0.N) : iblk0 V c 2 t = V c main_v0 := by
  obtain ⟨-, -, -, -, e0, e1, -⟩ := idx_facts t
  funext y
  show V c main_v0 (((cfg0.win 2).blk t).view.emb y) = V c main_v0 y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega
theorem blk3 (c : Dev nD) (t : Fin cfg0.N) : iblk0 V c 3 t = V c main_arg4 := by
  obtain ⟨-, -, -, -, -, -, e0, e1, -⟩ := idx_facts t
  funext y
  show V c main_arg4 (((cfg0.win 3).blk t).view.emb y) = V c main_arg4 y
  refine congrArg _ ?_
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega
theorem blk4 (c : Dev nD) (t : Fin cfg0.N) : iblk0 V c 4 t = V c main_v1 := by
  obtain ⟨-, -, -, -, -, -, -, -, e0, e1, -⟩ := idx_facts t
  funext y
  show V c main_v1 (((cfg0.win 4).blk t).view.emb y) = V c main_v1 y
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Row `p` of the row window's block at point `t` is row `8000·t + p` of the array. -/
theorem blk0_at (c : Dev nD) (t : Fin cfg0.N) (p : Fin 8000) (k : Fin 32) (r : Fin 2000000) (hr : r.val = t.val * 8000 + p.val) :
    iblk0 V c 0 t (ix2 p k) = V c main_arg0 (ix2 r k) := by
  obtain ⟨e0, e1, -⟩ := idx_facts t
  show V c main_arg0 (((cfg0.win 0).blk t).view.emb (ix2 p k)) = V c main_arg0 (ix2 r k)
  refine congrArg _ ?_
  funext a; apply Fin.ext
  match a with
  | ⟨0, _⟩ => show win0_0.index t (0 : Fin 2) * 8000 + 1 * p.val = r.val; omega
  | ⟨1, _⟩ => show win0_0.index t (1 : Fin 2) * 32 + 1 * k.val = k.val; omega

/-- What point `t` writes back is block `t` of the stack on all the rows. -/
theorem flushed_eq (c : Dev nD) (t : Fin cfg0.N) :
    (dat0 V c).flushed 5 t = ((cfg0.win 5).blk t).view.read (Elt Ideal)
      (phiArr (V c main_arg0) (V c main_arg2) (V c main_v0) (V c main_arg4) (V c main_v1)) := by
  show (cfg0.win 5).cut (grid0.coords t) ((dat0 V c).after 5 t) = _
  rw [after0_5, blk1, blk2, blk3, blk4]
  have ht : t.val < 250 := by have h1 := t.isLt; have hN : cfg0.N = 250 := N_0; omega
  obtain ⟨-, -, -, -, -, -, -, -, -, -, e0, e1⟩ := idx_facts t
  funext j
  obtain ⟨p, q, rfl⟩ : ∃ (p : Fin 8000) (q : Fin 64), j = ix2 p q := ⟨j 0, j 1, eq_ix2 j⟩
  have hp := p.isLt
  have hemb : ((cfg0.win 5).blk t).view.emb (ix2 p q) = ix2 (⟨t.val * 8000 + p.val, by omega⟩ : Fin 2000000) q := by
    funext a; apply Fin.ext
    match a with
    | ⟨0, _⟩ => show win0_5.index t (0 : Fin 2) * 8000 + 1 * p.val = t.val * 8000 + p.val; omega
    | ⟨1, _⟩ => show win0_5.index t (1 : Fin 2) * 64 + 1 * q.val = q.val; omega
  show out0_5 (F := Ideal) (iblk0 V c 0 t) (V c main_arg2) (V c main_v0) (V c main_arg4) (V c main_v1) (ix2 p q)
    = phiArr (V c main_arg0) (V c main_arg2) (V c main_v0) (V c main_arg4) (V c main_v1) (((cfg0.win 5).blk t).view.emb (ix2 p q))
  rw [hemb]
  exact out_at (iblk0 V c 0 t) _ _ _ _ (V c main_arg0) p ⟨t.val * 8000 + p.val, by omega⟩
    (fun k => blk0_at V c t p k _ rfl) q

/-- An index of the array is in point `t`'s block iff each coordinate is in the block's range on its axis. -/
theorem mem_blk (t : Fin cfg0.N) (i : S2000000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v2).slice (win0_5.rect t)).set ↔ _
  rw [View.set_slice_whole, Rect.mem_set_unit]
  exact Iff.rfl

/-- Every row is in the block of the point `row / 8000`. -/
theorem cover (i : S2000000x64.Idx) : ∃ t : Fin cfg0.N, (cfg0.win 5).flush t = true ∧ i ∈ ((cfg0.win 5).blk t).view.set := by
  have hi0 : (i 0).val < 2000000 := (i 0).isLt
  have hi1 : (i 1).val < 64 := (i 1).isLt
  have hN : cfg0.N = 250 := N_0
  refine ⟨⟨(i 0).val / 8000, by rw [hN]; omega⟩, flush0_5 _, ?_⟩
  rw [mem_blk]
  obtain ⟨-, -, -, -, -, -, -, -, -, -, e0, e1⟩ := idx_facts ⟨(i 0).val / 8000, by rw [hN]; omega⟩
  intro a
  match a with
  | ⟨0, _⟩ =>
    show win0_5.index _ (0 : Fin 2) * 8000 ≤ (i 0).val ∧ (i 0).val < win0_5.index _ (0 : Fin 2) * 8000 + 8000
    rw [e0]; show (i 0).val / 8000 * 8000 ≤ (i 0).val ∧ (i 0).val < (i 0).val / 8000 * 8000 + 8000; omega
  | ⟨1, _⟩ =>
    show win0_5.index _ (1 : Fin 2) * 64 ≤ (i 1).val ∧ (i 1).val < win0_5.index _ (1 : Fin 2) * 64 + 64
    rw [e1]; omega

/-- The output array after the region: the stack on all the rows, of the contents the region finds. -/
theorem final (c : Dev nD) :
    (dat0 V c).arrAt 5 cfg0.N = phiArr (V c main_arg0) (V c main_arg2) (V c main_v0) (V c main_arg4) (V c main_v1) :=
  (dat0 V c).arrAt_eq_of_cover 5 _ (fun t _ => flushed_eq V c t) cover

end Cert.KernelIdeal.KPhi

end
-- ==== Proof.KRho.lean ====
/-
  The second region: two rectified layers, a third layer and the logistic function on the rows of the pooled matrix, tiled 5000
  rows to a grid point. The body's one store is the stack of its loaded blocks; block `t` of the rows is rows
  `5000·t … 5000·t + 4999`, the six small operands are whole at every point, and an entry of the stack reads its own row
  only — so what point `t` writes back is block `t` of the stack applied to ALL the rows, the blocks tile the output array,
  and the array ends holding that one function of the contents the region finds. Stated at any entry contents `V`.
-/
import proofs.«109575_j11759620456594_1_alg».proof.Proof.Gen.KernelIdeal.Frame
import proofs.«109575_j11759620456594_1_alg».proof.Proof.LibReluMlp
import Idealize.ShloMosaic.Lib.Pipeline.Value
import Idealize.ShloMosaic.Lib.ValueIdx

set_option maxRecDepth 16384

noncomputable section

namespace Cert.KernelIdeal.KRho

open Cert.KernelIdeal Cert.KernelIdeal.Gen
open Idealize.ShloMosaic Idealize.ShloMosaic.TcCoe Idealize.SL.Sem
open Idealize.ShloMosaic.ValueIdx Idealize.ShloMosaic.ReluMlp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stack on all the rows: weights rounded to bf16, biases given as rows. -/
def rhoArr (x : FVec Ideal S100000x64 .f32) (w1 : FVec Ideal S64x128 .f32) (b1 : FVec Ideal S1x128 .f32)
    (w2 : FVec Ideal S128x64 .f32) (b2 : FVec Ideal S1x64 .f32) (w3 : FVec Ideal S64x1 .f32) (b3 : FVec Ideal S1x1 .f32) :
    FVec Ideal S100000x1 .f32 :=
  rho3 x (truncf .bf16 w1 bitsLt_bf16_f32) b1 (truncf .bf16 w2 bitsLt_bf16_f32) b2 (truncf .bf16 w3 bitsLt_bf16_f32) b3

/-- The body's payload is the stack of its loaded blocks. -/
theorem pay_eq (x0 : FVec Ideal S5000x64 .f32) (x1 : FVec Ideal S64x128 .f32) (x2 : FVec Ideal S1x128 .f32)
    (x3 : FVec Ideal S128x64 .f32) (x4 : FVec Ideal S1x64 .f32) (x5 : FVec Ideal S64x1 .f32) (x6 : FVec Ideal S1x1 .f32) :
    k1_pay1 x0 x1 x2 x3 x4 x5 x6
      = rho3 x0 (truncf .bf16 x1 bitsLt_bf16_f32) x2 (truncf .bf16 x3 bitsLt_bf16_f32) x4 (truncf .bf16 x5 bitsLt_bf16_f32) x6 :=
  rho3K_eq (d1 := dot_S5000x64_S64x128_S5000x128_1_0_0_1_n_n) (d2 := dot_S5000x128_S128x64_S5000x64_1_0_0_1_n_n)
    (d3 := dot_S5000x64_S64x1_S5000x1_1_0_0_1_n_n) rfl rfl rfl
    bitsLt_bf16_f32 shapeCasts_S5000x64_S5000x64 shapeCasts_S1x128_S1x128 broadcasts_S1x128_S5000x128
    shapeCasts_S1x64_S1x64 broadcasts_S1x64_S5000x64 shapeCasts_S1x1_S1x1 broadcasts_S1x1_S5000x1 x0 x1 x2 x3 x4 x5 x6

/-- What the body leaves in the output block, at row `p` of the block: the stack on all the rows at any row `r` that
    holds the block's row `p`. -/
theorem out_at (x0 : FVec Ideal S5000x64 .f32) (x1 : FVec Ideal S64x128 .f32) (x2 : FVec Ideal S1x128 .f32)
    (x3 : FVec Ideal S128x64 .f32) (x4 : FVec Ideal S1x64 .f32) (x5 : FVec Ideal S64x1 .f32) (x6 : FVec Ideal S1x1 .f32)
    (X : FVec Ideal S100000x64 .f32)
    (p : Fin 5000) (r : Fin 100000) (h : ∀ k : Fin 64, x0 (ix2 p k) = X (ix2 r k)) (q : Fin 1) :
    out1_7 (F := Ideal) x0 x1 x2 x3 x4 x5 x6 (ix2 p q) = rhoArr X x1 x2 x3 x4 x5 x6 (ix2 r q) := by
  unfold out1_7
  rw [View.canon_unit_zero hz]
  simp only [View.ld_unit_zero (S := S5000x64) hz, View.ld_unit_zero (S := S64x128) hz, View.ld_unit_zero (S := S1x128) hz,
    View.ld_unit_zero (S := S128x64) hz, View.ld_unit_zero (S := S1x64) hz, View.ld_unit_zero (S := S64x1) hz,
    View.ld_unit_zero (S := S1x1) hz]
  rw [pay_eq]
  exact rho3_rows x0 X _ x2 _ x4 _ x6 p r h q

/-- The printed index maps, decided over the grid: the row windows' block index is the point, every other index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The small operands' blocks are the whole arrays. -/
theorem blk1 (c : Dev nD) (t : Fin cfg1.N) : iblk1 V c 1 t = V c main_arg6 := by
  obtain ⟨-, -, e0, e1, -⟩ := idx_facts t
  funext y
  show V c main_arg6 (((cfg1.win 1).blk t).view.emb y) = V c main_arg6 y
  refine congrArg _ ?_
  funext a; apply Fin.ext
  match a with
  | ⟨0, _⟩ => show win1_1.index t (0 : Fin 2) * 64 + 1 * (y 0).val = (y 0).val; omega
  | ⟨1, _⟩ => show win1_1.index t (1 : Fin 2) * 128 + 1 * (y 1).val = (y 1).val; omega
theorem blk2 (c : Dev nD) (t : Fin cfg1.N) : iblk1 V c 2 t = V c main_v13 := by
  obtain ⟨-, -, -, -, e0, e1, -⟩ := idx_facts t
  funext y
  show V c main_v13 (((cfg1.win 2).blk t).view.emb y) = V c main_v13 y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega
theorem blk3 (c : Dev nD) (t : Fin cfg1.N) : iblk1 V c 3 t = V c main_arg8 := by
  obtain ⟨-, -, -, -, -, -, e0, e1, -⟩ := idx_facts t
  funext y
  show V c main_arg8 (((cfg1.win 3).blk t).view.emb y) = V c main_arg8 y
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 64 + 1 * (y 1).val = (y 1).val; omega
theorem blk4 (c : Dev nD) (t : Fin cfg1.N) : iblk1 V c 4 t = V c main_v14 := by
  obtain ⟨-, -, -, -, -, -, -, -, e0, e1, -⟩ := idx_facts t
  funext y
  show V c main_v14 (((cfg1.win 4).blk t).view.emb y) = V c main_v14 y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega
theorem blk5 (c : Dev nD) (t : Fin cfg1.N) : iblk1 V c 5 t = V c main_arg10 := by
  obtain ⟨-, -, -, -, -, -, -, -, -, -, e0, e1, -⟩ := idx_facts t
  funext y
  show V c main_arg10 (((cfg1.win 5).blk t).view.emb y) = V c main_arg10 y
  refine congrArg _ ?_
  funext a; apply Fin.ext
  match a with
  | ⟨0, _⟩ => show win1_5.index t (0 : Fin 2) * 64 + 1 * (y 0).val = (y 0).val; omega
  | ⟨1, _⟩ => show win1_5.index t (1 : Fin 2) * 1 + 1 * (y 1).val = (y 1).val; omega
theorem blk6 (c : Dev nD) (t : Fin cfg1.N) : iblk1 V c 6 t = V c main_v15 := by
  obtain ⟨-, -, -, -, -, -, -, -, -, -, -, -, e0, e1, -⟩ := idx_facts t
  funext y
  show V c main_v15 (((cfg1.win 6).blk t).view.emb y) = V c main_v15 y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 1 + 1 * (y 1).val = (y 1).val; omega

/-- Row `p` of the row window's block at point `t` is row `5000·t + p` of the array. -/
theorem blk0_at (c : Dev nD) (t : Fin cfg1.N) (p : Fin 5000) (k : Fin 64) (r : Fin 100000) (hr : r.val = t.val * 5000 + p.val) :
    iblk1 V c 0 t (ix2 p k) = V c main_v12 (ix2 r k) := by
  obtain ⟨e0, e1, -⟩ := idx_facts t
  show V c main_v12 (((cfg1.win 0).blk t).view.emb (ix2 p k)) = V c main_v12 (ix2 r k)
  refine congrArg _ ?_
  funext a; apply Fin.ext
  match a with
  | ⟨0, _⟩ => show win1_0.index t (0 : Fin 2) * 5000 + 1 * p.val = r.val; omega
  | ⟨1, _⟩ => show win1_0.index t (1 : Fin 2) * 64 + 1 * k.val = k.val; omega

/-- What point `t` writes back is block `t` of the stack on all the rows. -/
theorem flushed_eq (c : Dev nD) (t : Fin cfg1.N) :
    (dat1 V c).flushed 7 t = ((cfg1.win 7).blk t).view.read (Elt Ideal)
      (rhoArr (V c main_v12) (V c main_arg6) (V c main_v13) (V c main_arg8) (V c main_v14) (V c main_arg10) (V c main_v15)) := by
  show (cfg1.win 7).cut (grid1.coords t) ((dat1 V c).after 7 t) = _
  rw [after1_7, blk1, blk2, blk3, blk4, blk5, blk6]
  have ht : t.val < 20 := by have h1 := t.isLt; have hN : cfg1.N = 20 := N_1; omega
  obtain ⟨-, -, -, -, -, -, -, -, -, -, -, -, -, -, e0, e1⟩ := idx_facts t
  funext j
  obtain ⟨p, q, rfl⟩ : ∃ (p : Fin 5000) (q : Fin 1), j = ix2 p q := ⟨j 0, j 1, eq_ix2 j⟩
  have hp := p.isLt
  have hemb : ((cfg1.win 7).blk t).view.emb (ix2 p q) = ix2 (⟨t.val * 5000 + p.val, by omega⟩ : Fin 100000) q := by
    funext a; apply Fin.ext
    match a with
    | ⟨0, _⟩ => show win1_7.index t (0 : Fin 2) * 5000 + 1 * p.val = t.val * 5000 + p.val; omega
    | ⟨1, _⟩ => show win1_7.index t (1 : Fin 2) * 1 + 1 * q.val = q.val; omega
  show out1_7 (F := Ideal) (iblk1 V c 0 t) (V c main_arg6) (V c main_v13) (V c main_arg8) (V c main_v14) (V c main_arg10) (V c main_v15) (ix2 p q)
    = rhoArr (V c main_v12) (V c main_arg6) (V c main_v13) (V c main_arg8) (V c main_v14) (V c main_arg10) (V c main_v15) (((cfg1.win 7).blk t).view.emb (ix2 p q))
  rw [hemb]
  exact out_at (iblk1 V c 0 t) _ _ _ _ _ _ (V c main_v12) p ⟨t.val * 5000 + p.val, by omega⟩
    (fun k => blk0_at V c t p k _ rfl) q

/-- An index of the array is in point `t`'s block iff each coordinate is in the block's range on its axis. -/
theorem mem_blk (t : Fin cfg1.N) (i : S100000x1.Idx) :
    i ∈ ((cfg1.win 7).blk t).view.set ↔ ∀ a : Fin 2, win1_7.index t a * S5000x1.size a ≤ (i a).val ∧ (i a).val < win1_7.index t a * S5000x1.size a + S5000x1.size a := by
  show i ∈ ((View.whole main_v16).slice (win1_7.rect t)).set ↔ _
  rw [View.set_slice_whole, Rect.mem_set_unit]
  exact Iff.rfl

/-- Every row is in the block of the point `row / 5000`. -/
theorem cover (i : S100000x1.Idx) : ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 20 := N_1
  refine ⟨⟨(i 0).val / 5000, by rw [hN]; omega⟩, flush1_7 _, ?_⟩
  rw [mem_blk]
  obtain ⟨-, -, -, -, -, -, -, -, -, -, -, -, -, -, e0, e1⟩ := idx_facts ⟨(i 0).val / 5000, by rw [hN]; omega⟩
  intro a
  match a with
  | ⟨0, _⟩ =>
    show win1_7.index _ (0 : Fin 2) * 5000 ≤ (i 0).val ∧ (i 0).val < win1_7.index _ (0 : Fin 2) * 5000 + 5000
    rw [e0]; show (i 0).val / 5000 * 5000 ≤ (i 0).val ∧ (i 0).val < (i 0).val / 5000 * 5000 + 5000; omega
  | ⟨1, _⟩ =>
    show win1_7.index _ (1 : Fin 2) * 1 ≤ (i 1).val ∧ (i 1).val < win1_7.index _ (1 : Fin 2) * 1 + 1
    rw [e1]; omega

/-- The output array after the region: the stack on all the rows, of the contents the region finds. -/
theorem final (c : Dev nD) :
    (dat1 V c).arrAt 7 cfg1.N
      = rhoArr (V c main_v12) (V c main_arg6) (V c main_v13) (V c main_arg8) (V c main_v14) (V c main_arg10) (V c main_v15) :=
  (dat1 V c).arrAt_eq_of_cover 7 _ (fun t _ => flushed_eq V c t) cover

end Cert.KernelIdeal.KRho

end
-- ==== Proof.KHost.lean ====
/-
  The host stretches of the idealized kernel program, read. Before the first region two bias vectors are recast to rows; between
  the regions the segment numbering is computed from the identifiers (adjacent identifiers compared, the "differs" bits
  widened, their running sum behind a leading zero, as a column), the rows the first region wrote are added into a zero table
  at their segment numbers, and three more bias vectors are recast to rows. Each stretch is read at a base valuation; the
  contents at the second region's entry then follow the chain of boundaries back to the launch memory: an argument is
  written by nothing, and the first region's output array is what its write-backs leave.
-/
import proofs.«109575_j11759620456594_1_alg».proof.Proof.Gen.KernelIdeal.Frame
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-! ## The pooling, as one map of the identifiers and the rows -/

/-- The segment numbering: position 0 gets 0, position `i + 1` the number of places `j ≤ i` at which the identifier
    changes, as a column. -/
def kSeg (ids : (⟨S2000000, .i32⟩ : BufTy).Contents (Elt F)) : (⟨S2000000x1, .i32⟩ : BufTy).Contents (Elt F) :=
  broadcastInDim S2000000x1 ![0] bcast_S2000000_S2000000x1_0
    (concatenate S2000000 0
      [⟨S1, (broadcastInDim S1 ![] bcast_S_S1 (constantI S_ 32 0#32) : (⟨S1, .i32⟩ : BufTy).Contents (Elt F))⟩,
       ⟨S1999999, (Host.reduceWindow IntOp.addi ![1999999] ![1] ![1999998] ![0]
          ((extui 32 (cmpi .ne (extractStridedSlice S1999999 ![1] ids slices_S2000000_S1999999_1)
              (extractStridedSlice S1999999 ![0] ids slices_S2000000_S1999999_0)) natLt_1_32) : (⟨S1999999, .i32⟩ : BufTy).Contents (Elt F))
          (broadcastInDim S_ ![] bcast_S_S_ (constantI S_ 32 0#32))
          reduceWindows_S1999999_S1999999_w1999999s1p1999998_0 h_S_ : (⟨S1999999, .i32⟩ : BufTy).Contents (Elt F))⟩]
      concatenates_S1_S1999999_S2000000_d0 : (⟨S2000000, .i32⟩ : BufTy).Contents (Elt F))

/-- The pooling: the rows of `h` added into a zero table, row `i` at the segment number of `i`. -/
def kPool (ids : (⟨S2000000, .i32⟩ : BufTy).Contents (Elt F)) (h : FVec F S2000000x64 .f32) : FVec F S100000x64 .f32 :=
  Host.scatterAdd scatter_S100000x64_S2000000x1_S2000000x64_1_0_0_1
    (broadcastInDim S100000x64 ![] bcast_S_S100000x64 (constant S_ .f32 0x00000000#32))
    (kSeg (F := F) ids) h

/-! ## The stretches at a base valuation -/

variable (Wb : Valuation τ sig (Elt F))

theorem pre_v0 : after hostOps0 Wb (main_v0 : DevRef τ sig) = shapeCast S1x64 (Wb (main_arg3 : DevRef τ sig)) shapeCasts_S64_S1x64 := by
  after_results; rfl
theorem pre_v1 : after hostOps0 Wb (main_v1 : DevRef τ sig) = shapeCast S1x64 (Wb (main_arg5 : DevRef τ sig)) shapeCasts_S64_S1x64 := by
  after_results; rfl
theorem pre_keep (b : Ref sig .tc) (h0 : b ≠ main_v0) (h1 : b ≠ main_v1) : after hostOps0 Wb (b : DevRef τ sig) = Wb (b : DevRef τ sig) :=
  after_of_forall_not_mem _ _ (List.forall_iff_forall_mem.mp (by
    simp only [hostOps0, List.Forall, StableHlo.reshape_writes, Finset.mem_singleton]
    exact ⟨StableHlo.devRef_ne_of_ne h0, StableHlo.devRef_ne_of_ne h1⟩))

attribute [local irreducible] Host.scatterAdd Host.reduceWindow in
theorem mid_v12 : after hostOps1_2 (after hostOps1_1 (after hostOps1 Wb)) (main_v12 : DevRef τ sig)
    = kPool (Wb (main_arg1 : DevRef τ sig)) (Wb (main_v2 : DevRef τ sig)) := by
  simp only [hostOps1, hostOps1_1, hostOps1_2, after_cons, after_nil]
  rfl
theorem mid_v13 : after hostOps1_2 (after hostOps1_1 (after hostOps1 Wb)) (main_v13 : DevRef τ sig)
    = shapeCast S1x128 (Wb (main_arg7 : DevRef τ sig)) shapeCasts_S128_S1x128 := by
  simp only [hostOps1, hostOps1_1, hostOps1_2, after_cons, after_nil]
  rfl
theorem mid_v14 : after hostOps1_2 (after hostOps1_1 (after hostOps1 Wb)) (main_v14 : DevRef τ sig)
    = shapeCast S1x64 (Wb (main_arg9 : DevRef τ sig)) shapeCasts_S64_S1x64 := by
  simp only [hostOps1, hostOps1_1, hostOps1_2, after_cons, after_nil]
  rfl
theorem mid_v15 : after hostOps1_2 (after hostOps1_1 (after hostOps1 Wb)) (main_v15 : DevRef τ sig)
    = shapeCast S1x1 (Wb (main_arg11 : DevRef τ sig)) shapeCasts_S1_S1x1 := by
  simp only [hostOps1, hostOps1_1, hostOps1_2, after_cons, after_nil]
  rfl
/-- The second region's weight matrices are written by no operation of the stretch. -/
theorem mid_arg6 : after hostOps1_2 (after hostOps1_1 (after hostOps1 Wb)) (main_arg6 : DevRef τ sig) = Wb (main_arg6 : DevRef τ sig) := by
  simp only [hostOps1, hostOps1_1, hostOps1_2, after_cons, after_nil]
  rfl
theorem mid_arg8 : after hostOps1_2 (after hostOps1_1 (after hostOps1 Wb)) (main_arg8 : DevRef τ sig) = Wb (main_arg8 : DevRef τ sig) := by
  simp only [hostOps1, hostOps1_1, hostOps1_2, after_cons, after_nil]
  rfl
theorem mid_arg10 : after hostOps1_2 (after hostOps1_1 (after hostOps1 Wb)) (main_arg10 : DevRef τ sig) = Wb (main_arg10 : DevRef τ sig) := by
  simp only [hostOps1, hostOps1_1, hostOps1_2, after_cons, after_nil]
  rfl

end Cert.KernelIdeal.KHost

end
-- ==== Proof.KVal.lean ====
/-
  The idealized kernel program's result as one function of its arguments. Following the boundaries back from the end: the result
  array is what the second region's write-backs leave, the second stack on all the rows of the pooled matrix; the pooled matrix
  is the pooling of the identifiers and of the first region's output array; that array is the first stack on all the rows of the
  input; every bias row is its vector recast; and every argument is as launched.
-/
import proofs.«109575_j11759620456594_1_alg».proof.Proof.KRun
import proofs.«109575_j11759620456594_1_alg».proof.Proof.KPhi
import proofs.«109575_j11759620456594_1_alg».proof.Proof.KRho
import proofs.«109575_j11759620456594_1_alg».proof.Proof.KHost

set_option maxRecDepth 16384

noncomputable section

namespace Cert.KernelIdeal.KVal

open Cert.KernelIdeal Cert.KernelIdeal.Gen
open Idealize.ShloMosaic Idealize.ShloMosaic.TcCoe Idealize.SL.Sem Idealize.ShloMosaic.StableHlo
open Cert.KernelIdeal.KPhi Cert.KernelIdeal.KRho Cert.KernelIdeal.KHost

/-- The program's result from its argument arrays: the second stack of the pooling of the first stack. -/
def kOut (x : FVec Ideal S2000000x32 .f32) (ids : (⟨S2000000, .i32⟩ : BufTy).Contents (Elt Ideal))
    (w1 : FVec Ideal S32x64 .f32) (b1 : FVec Ideal S64 .f32) (w2 : FVec Ideal S64x64 .f32) (b2 : FVec Ideal S64 .f32)
    (w3 : FVec Ideal S64x128 .f32) (b3 : FVec Ideal S128 .f32) (w4 : FVec Ideal S128x64 .f32) (b4 : FVec Ideal S64 .f32)
    (w5 : FVec Ideal S64x1 .f32) (b5 : FVec Ideal S1 .f32) : FVec Ideal S100000x1 .f32 :=
  rhoArr (kPool (F := Ideal) ids (phiArr x w1 (shapeCast S1x64 b1 shapeCasts_S64_S1x64) w2 (shapeCast S1x64 b2 shapeCasts_S64_S1x64)))
    w3 (shapeCast S1x128 b3 shapeCasts_S128_S1x128) w4 (shapeCast S1x64 b4 shapeCasts_S64_S1x64) w5 (shapeCast S1x1 b5 shapeCasts_S1_S1x1)

variable (m : (ℓ : Loc nD τ sig) → Buf (Elt Ideal) ℓ) (ρ : Dev nD → PrngReg)

/-- A buffer the first stretch does not write holds, at the first region's entry, its launch contents. -/
theorem W1_keep (c : Dev nD) (b : Ref sig .tc) (h0 : b ≠ main_v0) (h1 : b ≠ main_v1) :
    W1 m ρ c (b : DevRef τ sig) = m ((c : Thread nD τ).loc b) :=
  (pre_keep (W0 m ρ c) b h0 h1).trans rfl

/-- A buffer that is no array of the first region and that the first stretch does not write holds, at the first region's
    exit, its launch contents. -/
theorem W2_keep (c : Dev nD) (b : Ref sig .tc) (hb : ∀ w, Pipeline.arrRef spec0 w ≠ b) (h0 : b ≠ main_v0) (h1 : b ≠ main_v1) :
    W2 m ρ c (b : DevRef τ sig) = m ((c : Thread nD τ).loc b) :=
  (W2_of_ne m ρ c b hb).trans (W1_keep m ρ c b h0 h1)

/-- The first region's output array at its exit: the first stack on all the rows of the launch input. -/
theorem phi_out (c : Dev nD) :
    W2 m ρ c (main_v2 : DevRef τ sig)
      = phiArr (m ((c : Thread nD τ).loc main_arg0)) (m ((c : Thread nD τ).loc main_arg2))
          (shapeCast S1x64 (m ((c : Thread nD τ).loc main_arg3)) shapeCasts_S64_S1x64) (m ((c : Thread nD τ).loc main_arg4))
          (shapeCast S1x64 (m ((c : Thread nD τ).loc main_arg5)) shapeCasts_S64_S1x64) := by
  refine (W2_arr m ρ c 5).trans ?_
  rw [KPhi.final (V1 m ρ) c]
  show phiArr (W1 m ρ c (main_arg0 : DevRef τ sig)) (W1 m ρ c (main_arg2 : DevRef τ sig)) (W1 m ρ c (main_v0 : DevRef τ sig))
    (W1 m ρ c (main_arg4 : DevRef τ sig)) (W1 m ρ c (main_v1 : DevRef τ sig)) = _
  rw [W1_keep m ρ c main_arg0 (by decide) (by decide), W1_keep m ρ c main_arg2 (by decide) (by decide),
    W1_keep m ρ c main_arg4 (by decide) (by decide),
    show W1 m ρ c (main_v0 : DevRef τ sig) = _ from pre_v0 (W0 m ρ c),
    show W1 m ρ c (main_v1 : DevRef τ sig) = _ from pre_v1 (W0 m ρ c)]

/-- The result array at the end of the run, from the launch memory. -/
theorem result_eq (c : Dev nD) :
    W6 m ρ c (main_v16 : DevRef τ sig)
      = kOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  refine (W6_arr m ρ c 7).trans ?_
  rw [KRho.final (V5 m ρ) c]
  show rhoArr (W5 m ρ c (main_v12 : DevRef τ sig)) (W5 m ρ c (main_arg6 : DevRef τ sig)) (W5 m ρ c (main_v13 : DevRef τ sig))
    (W5 m ρ c (main_arg8 : DevRef τ sig)) (W5 m ρ c (main_v14 : DevRef τ sig)) (W5 m ρ c (main_arg10 : DevRef τ sig))
    (W5 m ρ c (main_v15 : DevRef τ sig)) = _
  rw [show W5 m ρ c (main_v12 : DevRef τ sig) = _ from mid_v12 (W2 m ρ c),
    show W5 m ρ c (main_arg6 : DevRef τ sig) = _ from mid_arg6 (W2 m ρ c),
    show W5 m ρ c (main_v13 : DevRef τ sig) = _ from mid_v13 (W2 m ρ c),
    show W5 m ρ c (main_arg8 : DevRef τ sig) = _ from mid_arg8 (W2 m ρ c),
    show W5 m ρ c (main_v14 : DevRef τ sig) = _ from mid_v14 (W2 m ρ c),
    show W5 m ρ c (main_arg10 : DevRef τ sig) = _ from mid_arg10 (W2 m ρ c),
    show W5 m ρ c (main_v15 : DevRef τ sig) = _ from mid_v15 (W2 m ρ c),
    phi_out m ρ c,
    W2_keep m ρ c main_arg1 (by decide) (by decide) (by decide), W2_keep m ρ c main_arg6 (by decide) (by decide) (by decide),
    W2_keep m ρ c main_arg7 (by decide) (by decide) (by decide), W2_keep m ρ c main_arg8 (by decide) (by decide) (by decide),
    W2_keep m ρ c main_arg9 (by decide) (by decide) (by decide), W2_keep m ρ c main_arg10 (by decide) (by decide) (by decide),
    W2_keep m ρ c main_arg11 (by decide) (by decide) (by decide)]
  rfl

/-- Every weakly fair execution of the idealized kernel program terminates with the result array at `kOut` of the launch
    arguments and the arguments unchanged. -/
theorem run : θ_run defs (onTc (τ := τ) (main (F := Ideal))) ⟨m, fun _ => 0, ρ⟩ fun r => ∀ c : Dev nD,
      r.2.mem ((c.tc : Thread nD τ).loc main_v16)
        = kOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨(h c _ (mem_uc main_v16 (by decide))).trans (result_eq m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c)⟩)
    (KRun.run_final m ρ)

end Cert.KernelIdeal.KVal

end
-- ==== Proof.Bridge.lean ====
/-
  The two programs compute one function of the arguments. The reference's per-row network is the first stack in the host's
  spelling, the kernel program's first region the same stack in a kernel body's spelling tiled over the rows: both are
  `max(max(x·w1 + b1, 0)·w2 + b2, 0)` with the weights rounded to bf16 (the identity on the extended reals) and the biases as
  rows. The pooling is the same operations on both sides. The per-segment network is the second stack, the logistic function
  one operation in the kernel body and `1 / (1 + exp(−·))` on the host. No law of arithmetic beyond these readings is used,
  so nothing here needs the inputs finite.
-/
import proofs.«109575_j11759620456594_1_alg».proof.Proof.RefRun
import proofs.«109575_j11759620456594_1_alg».proof.Proof.KVal
import proofs.«109575_j11759620456594_1_alg».proof.Proof.LibReluMlp

set_option maxRecDepth 16384

noncomputable section

namespace Cert.Proof.Bridge

open Idealize.ShloMosaic Idealize.ShloMosaic.ReluMlp
open Cert.KernelIdeal Cert.KernelIdeal.Gen
open Cert.KernelIdeal.KPhi Cert.KernelIdeal.KRho Cert.KernelIdeal.KHost Cert.KernelIdeal.KVal

/-- The reference's per-row network is the first stack on all the rows. -/
theorem phi_eq (x : FVec Ideal S2000000x32 .f32) (w1 : FVec Ideal S32x64 .f32) (b1 : FVec Ideal S64 .f32)
    (w2 : FVec Ideal S64x64 .f32) (b2 : FVec Ideal S64 .f32) :
    Cert.ReferenceIdeal.RefRun.refPhi (F := Ideal) x w1 b1 w2 b2
      = phiArr x w1 (shapeCast S1x64 b1 shapeCasts_S64_S1x64) w2 (shapeCast S1x64 b2 shapeCasts_S64_S1x64) :=
  phi2H_eq (d1 := Cert.ReferenceIdeal.dot_S2000000x32_S32x64_S2000000x64_1_0_0_1_n_n) (d2 := Cert.ReferenceIdeal.dot_S2000000x64_S64x64_S2000000x64_1_0_0_1_n_n)
    rfl rfl _ _ _ _ _ _ bitsLt_bf16_f32 shapeCasts_S64_S1x64 shapeCasts_S64_S1x64 x w1 b1 w2 b2

/-- The pooling is the same map in the two programs. -/
theorem pool_eq (ids : (⟨S2000000, .i32⟩ : BufTy).Contents (Elt Ideal)) (h : FVec Ideal S2000000x64 .f32) :
    Cert.ReferenceIdeal.RefRun.refPool (F := Ideal) ids h = kPool (F := Ideal) ids h := rfl

/-- The reference's per-segment network is the second stack on all the rows. -/
theorem rho_eq (p : FVec Ideal S100000x64 .f32) (w1 : FVec Ideal S64x128 .f32) (b1 : FVec Ideal S128 .f32)
    (w2 : FVec Ideal S128x64 .f32) (b2 : FVec Ideal S64 .f32) (w3 : FVec Ideal S64x1 .f32) (b3 : FVec Ideal S1 .f32) :
    Cert.ReferenceIdeal.RefRun.refRho (F := Ideal) p w1 b1 w2 b2 w3 b3
      = rhoArr p w1 (shapeCast S1x128 b1 shapeCasts_S128_S1x128) w2 (shapeCast S1x64 b2 shapeCasts_S64_S1x64)
          w3 (shapeCast S1x1 b3 shapeCasts_S1_S1x1) :=
  rho3H_eq (d1 := Cert.ReferenceIdeal.dot_S100000x64_S64x128_S100000x128_1_0_0_1_n_n) (d2 := Cert.ReferenceIdeal.dot_S100000x128_S128x64_S100000x64_1_0_0_1_n_n)
    (d3 := Cert.ReferenceIdeal.dot_S100000x64_S64x1_S100000x1_1_0_0_1_n_n)
    rfl rfl rfl _ _ _ _ _ _ _ _ _ bitsLt_bf16_f32 shapeCasts_S128_S1x128 shapeCasts_S64_S1x64 shapeCasts_S1_S1x1 p w1 b1 w2 b2 w3 b3

/-- The reference's result term is the kernel program's result function of the same arguments. -/
theorem out_eq (x : FVec Ideal S2000000x32 .f32) (ids : (⟨S2000000, .i32⟩ : BufTy).Contents (Elt Ideal))
    (w1 : FVec Ideal S32x64 .f32) (b1 : FVec Ideal S64 .f32) (w2 : FVec Ideal S64x64 .f32) (b2 : FVec Ideal S64 .f32)
    (w3 : FVec Ideal S64x128 .f32) (b3 : FVec Ideal S128 .f32) (w4 : FVec Ideal S128x64 .f32) (b4 : FVec Ideal S64 .f32)
    (w5 : FVec Ideal S64x1 .f32) (b5 : FVec Ideal S1 .f32) :
    Cert.ReferenceIdeal.RefRun.refRho (F := Ideal) (Cert.ReferenceIdeal.RefRun.refPool (F := Ideal) ids (Cert.ReferenceIdeal.RefRun.refPhi (F := Ideal) x w1 b1 w2 b2)) w3 b3 w4 b4 w5 b5
      = kOut x ids w1 b1 w2 b2 w3 b3 w4 b4 w5 b5 := by
  rw [rho_eq, phi_eq, pool_eq]
  rfl

end Cert.Proof.Bridge

end
-- ==== Proof.lean ====
/-
  The certificate of a three-stage network — a per-row network of two rectified dense layers, a sorted-segment sum of its rows
  by event, a per-event network of two rectified dense layers, a third layer and the logistic function — against its
  reference. The kernel program runs the first and the third stage as row-tiled kernels (8000 and 5000 rows to a grid point,
  operands rounded to bf16 on the way into the matrix unit) and the pooling on the host between them; the reference runs all
  three on the host. Over the extended reals rounding is the identity, a product into a zero accumulator is the host's
  contraction, and an entry of a dense layer reads its own row only, so each tiled stage is the whole-array stage and the two
  programs end at one function of the arguments (`Cert.KernelIdeal.KVal.kOut`): the kernel program's run with its result named
  (Proof/KVal.lean, over Proof/KRun.lean, KPhi.lean, KRho.lean, KHost.lean), the reference's run read back (Proof/RefRun.lean),
  and the equation between the two terms (Proof/Bridge.lean, over Proof/LibReluMlp.lean). The frames of the two kernel
  programs are the generated ones; the reference's is its run with the result dropped; the idealization rewrote nothing.
-/
import proofs.«109575_j11759620456594_1_alg».proof.Defs
import proofs.«109575_j11759620456594_1_alg».proof.Proof.Gen.Kernel
import proofs.«109575_j11759620456594_1_alg».proof.Proof.Gen.Kernel.Skeleton
import proofs.«109575_j11759620456594_1_alg».proof.Proof.Gen.Kernel.Launch
import proofs.«109575_j11759620456594_1_alg».proof.Proof.Gen.Kernel.Points
import proofs.«109575_j11759620456594_1_alg».proof.Proof.Gen.Kernel.Frame
import proofs.«109575_j11759620456594_1_alg».proof.Proof.Gen.KernelIdeal
import proofs.«109575_j11759620456594_1_alg».proof.Proof.Gen.KernelIdeal.Skeleton
import proofs.«109575_j11759620456594_1_alg».proof.Proof.Gen.KernelIdeal.Launch
import proofs.«109575_j11759620456594_1_alg».proof.Proof.Gen.KernelIdeal.Points
import proofs.«109575_j11759620456594_1_alg».proof.Proof.Gen.KernelIdeal.Frame
import proofs.«109575_j11759620456594_1_alg».proof.Proof.Gen.ReferenceIdeal
import proofs.«109575_j11759620456594_1_alg».proof.Proof.Gen.Pre_finite_inputs
import proofs.«109575_j11759620456594_1_alg».proof.Proof.RefRun
import proofs.«109575_j11759620456594_1_alg».proof.Proof.KVal
import proofs.«109575_j11759620456594_1_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on the arguments both programs end with the result at one function of the arguments. -/
theorem algebraic : Cert.algebraic_KernelIdeal_ReferenceIdeal := by
  intro m ρ m' ρ' _ hagree
  refine ⟨fun c => Cert.KernelIdeal.KVal.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), Cert.KernelIdeal.KVal.run m ρ, ?_⟩
  refine (θ_run Cert.ReferenceIdeal.defs _ _).mono (fun _ h c => ⟨(h c).1.trans ?_, (h c).2⟩) (Cert.ReferenceIdeal.RefRun.run (F := Ideal) m' ρ')
  obtain ⟨h0, h1, h2, h3, h4, h5, h6, h7, h8, h9, h10, h11⟩ := hagree c
  rw [h0, h1, h2, h3, h4, h5, h6, h7, h8, h9, h10, h11]
  exact Cert.Proof.Bridge.out_eq _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
